-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S64x128 : Shape := ⟨2, ![64, 128]⟩
abbrev S128x128 : Shape := ⟨2, ![128, 128]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S4x4096x128 .f32) (main_arg1 : FVec F S64x128 .f32) (main_arg2 : FVec F S64x128 .f32) (main_arg3 : FVec F S128x128 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S4x4096x128 : Shape := ⟨3, ![4, 4096, 128]⟩
abbrev S64x128 : Shape := ⟨2, ![64, 128]⟩
abbrev S128x128 : Shape := ⟨2, ![128, 128]⟩
abbrev S1x4096x128 : Shape := ⟨3, ![1, 4096, 128]⟩
abbrev S4096x128 : Shape := ⟨2, ![4096, 128]⟩
abbrev S4096x64 : Shape := ⟨2, ![4096, 64]⟩
abbrev S128x64 : Shape := ⟨2, ![128, 64]⟩
abbrev S4096 : Shape := ⟨1, ![4096]⟩
abbrev S4096x1 : Shape := ⟨2, ![4096, 1]⟩
abbrev S128 : Shape := ⟨1, ![128]⟩
abbrev S1x128 : Shape := ⟨2, ![1, 128]⟩

abbrev nBuf : Space → Nat
  | .hbm => 5
  | .vmem => 7
  | .smem => 0
  | _ => 0

abbrev bufTy : (tb : Table) → Fin (tcTables nBuf tb) → BufTy
  | .hbm, ⟨0, _⟩ => ⟨S4x4096x128, .f32⟩
  | .hbm, ⟨1, _⟩ => ⟨S64x128, .f32⟩
  | .hbm, ⟨2, _⟩ => ⟨S64x128, .f32⟩
  | .hbm, ⟨3, _⟩ => ⟨S128x128, .f32⟩
  | .hbm, ⟨4, _⟩ => ⟨S4x4096x128, .f32⟩
  | .local _ .vmem, ⟨0, _⟩ => ⟨S1x4096x128, .f32⟩
  | .local _ .vmem, ⟨1, _⟩ => ⟨S1x4096x128, .f32⟩
  | .local _ .vmem, ⟨2, _⟩ => ⟨S64x128, .f32⟩
  | .local _ .vmem, ⟨3, _⟩ => ⟨S64x128, .f32⟩
  | .local _ .vmem, ⟨4, _⟩ => ⟨S128x128, .f32⟩
  | .local _ .vmem, ⟨5, _⟩ => ⟨S1x4096x128, .f32⟩
  | .local _ .vmem, ⟨6, _⟩ => ⟨S1x4096x128, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S64x128_S64x128_0_0 : ∀ a, (![0, 0] : Fin 2 → Nat) a + S64x128.size a ≤ S64x128.size a
  h_S64x128 : 0 < S64x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  slices_S4096x128_o0_0_S128x128 : S4096x128.Slices ![0, 0] S128x128
  iota_S128x64_d0_w32 : S128x64.Iotas .tc 32 [0]
  iota_S128x64_d1_w32 : S128x64.Iotas .tc 32 [1]
  reduces_S4096x128_S4096 : S4096x128.Reduces [1] S4096
  shapeCasts_S4096_S4096x1 : S4096.ShapeCasts S4096x1
  broadcasts_S4096x1_S4096x128 : S4096x1.Broadcasts S4096x128
  reduces_S4096x128_S128 : S4096x128.Reduces [0] S128
  shapeCasts_S128_S1x128 : S128.ShapeCasts S1x128
  reduces_S128x128_S128 : S128x128.Reduces [0] S128
  broadcasts_S1x128_S4096x128 : S1x128.Broadcasts S4096x128
  shapeCasts_S4096x128_S1x4096x128 : S4096x128.ShapeCasts S1x4096x128
  dot_S4096x128_S64x128_S4096x64_1_1_0_0_n_n_wf : DotDims.WF S4096x128 S64x128 S4096x64 [1] [1] [0] [0] [] []
  dot_S128x128_S64x128_S128x64_1_1_0_0_n_n_wf : DotDims.WF S128x128 S64x128 S128x64 [1] [1] [0] [0] [] []
  dot_S128x128_S128x128_S128x128_1_1_0_0_n_n_wf : DotDims.WF S128x128 S128x128 S128x128 [1] [1] [0] [0] [] []
  dot_S4096x64_S128x64_S4096x128_1_1_0_0_n_n_wf : DotDims.WF S4096x64 S128x64 S4096x128 [1] [1] [0] [0] [] []
  dot_S4096x128_S128x128_S4096x128_1_0_0_1_n_n_wf : DotDims.WF S4096x128 S128x128 S4096x128 [1] [0] [0] [1] [] []
  dot_S1x128_S128x128_S1x128_1_1_0_0_n_n_wf : DotDims.WF S1x128 S128x128 S1x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S4x4096x128.size a
  hwx0_0 : ∀ i : grid0.Coords, EltTy.bits .f32 = 32 ∨ (Rect.block (s := S4x4096x128) S1x4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4096x128.size a ≤ S4x4096x128.size a
  hwx0_4 : ∀ i : grid0.Coords, EltTy.bits .f32 = 32 ∨ (Rect.block (s := S4x4096x128) S1x4096x128.size (cc0_transform_4 i) (hinb0_4 i)).WholeWords (EltTy.packing .f32)

variable [Facts₀]

def dot_S4096x128_S64x128_S4096x64_1_1_0_0_n_n : DotDims S4096x128 S64x128 S4096x64 where
  lhsContracting := [1]
  rhsContracting := [1]
  lhsNonContracting := [0]
  rhsNonContracting := [0]
  lhsBatch := []
  rhsBatch := []
  wf := dot_S4096x128_S64x128_S4096x64_1_1_0_0_n_n_wf
def dot_S128x128_S64x128_S128x64_1_1_0_0_n_n : DotDims S128x128 S64x128 S128x64 where
  lhsContracting := [1]
  rhsContracting := [1]
  lhsNonContracting := [0]
  rhsNonContracting := [0]
  lhsBatch := []
  rhsBatch := []
  wf := dot_S128x128_S64x128_S128x64_1_1_0_0_n_n_wf
def dot_S128x128_S128x128_S128x128_1_1_0_0_n_n : DotDims S128x128 S128x128 S128x128 where
  lhsContracting := [1]
  rhsContracting := [1]
  lhsNonContracting := [0]
  rhsNonContracting := [0]
  lhsBatch := []
  rhsBatch := []
  wf := dot_S128x128_S128x128_S128x128_1_1_0_0_n_n_wf
def dot_S4096x64_S128x64_S4096x128_1_1_0_0_n_n : DotDims S4096x64 S128x64 S4096x128 where
  lhsContracting := [1]
  rhsContracting := [1]
  lhsNonContracting := [0]
  rhsNonContracting := [0]
  lhsBatch := []
  rhsBatch := []
  wf := dot_S4096x64_S128x64_S4096x128_1_1_0_0_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S1x128_S128x128_S1x128_1_1_0_0_n_n : DotDims S1x128 S128x128 S1x128 where
  lhsContracting := [1]
  rhsContracting := [1]
  lhsNonContracting := [0]
  rhsNonContracting := [0]
  lhsBatch := []
  rhsBatch := []
  wf := dot_S1x128_S128x128_S1x128_1_1_0_0_n_n_wf

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x4096x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x128 : Shape := ⟨3, ![4, 4096, 128]⟩
abbrev S64x128 : Shape := ⟨2, ![64, 128]⟩
abbrev S128x128 : Shape := ⟨2, ![128, 128]⟩
abbrev S4x4096x64 : Shape := ⟨3, ![4, 4096, 64]⟩
abbrev S4x64x4096 : Shape := ⟨3, ![4, 64, 4096]⟩
abbrev S64x4096 : Shape := ⟨2, ![64, 4096]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S64x128, .f32⟩
  | .hbm, ⟨2, _⟩ => ⟨S64x128, .f32⟩
  | .hbm, ⟨3, _⟩ => ⟨S128x128, .f32⟩
  | .hbm, ⟨4, _⟩ => ⟨S4x4096x64, .f32⟩
  | .hbm, ⟨5, _⟩ => ⟨S4x4096x64, .f32⟩
  | .hbm, ⟨6, _⟩ => ⟨S4x4096x128, .f32⟩
  | .hbm, ⟨7, _⟩ => ⟨S4x64x4096, .f32⟩
  | .hbm, ⟨8, _⟩ => ⟨S64x4096, .i32⟩
  | .hbm, ⟨9, _⟩ => ⟨S_, .i32⟩
  | .hbm, ⟨10, _⟩ => ⟨S64x4096, .i32⟩
  | .hbm, ⟨11, _⟩ => ⟨S64x4096, .i32⟩
  | .hbm, ⟨12, _⟩ => ⟨S64x4096, .i32⟩
  | .hbm, ⟨13, _⟩ => ⟨S64x4096, .i1⟩
  | .hbm, ⟨14, _⟩ => ⟨S4x64x4096, .i1⟩
  | .hbm, ⟨15, _⟩ => ⟨S_, .f32⟩
  | .hbm, ⟨16, _⟩ => ⟨S4x64x4096, .f32⟩
  | .hbm, ⟨17, _⟩ => ⟨S4x64x4096, .f32⟩
  | .hbm, ⟨18, _⟩ => ⟨S4x4096x4096, .f32⟩
  | .hbm, ⟨19, _⟩ => ⟨S_, .f32⟩
  | .hbm, ⟨20, _⟩ => ⟨S4x4096, .f32⟩
  | .hbm, ⟨21, _⟩ => ⟨S_, .f32⟩
  | .hbm, ⟨22, _⟩ => ⟨S4x4096, .f32⟩
  | .hbm, ⟨23, _⟩ => ⟨S4x4096, .f32⟩
  | .hbm, ⟨24, _⟩ => ⟨S4x4096x1, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S4x4096x4096, .f32⟩
  | .hbm, ⟨32, _⟩ => ⟨S4x4096x4096, .f32⟩
  | .hbm, ⟨33, _⟩ => ⟨S4x4096x128, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_cst : Ref sig .tc := ⟨.hbm, 15, rfl⟩
abbrev main_call0_v6 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩

abbrev nD : Nat := 1
abbrev τ : Topo := Topo.v7x

variable {F : FTy → Type} [FloatOps F]

class Facts₀ : Prop where
  transposes_S4x4096x64_S4x64x4096_0_2_1 : S4x4096x64.Transposes [0, 2, 1] S4x64x4096
  bcast_S_S64x4096 : S_.BroadcastsInDim S64x4096 (![] : Fin 0 → Fin S64x4096.rank)
  bcast_S64x4096_S4x64x4096_1_2 : S64x4096.BroadcastsInDim S4x64x4096 (![1, 2] : Fin 2 → Fin S4x64x4096.rank)
  bcast_S_S4x64x4096 : S_.BroadcastsInDim S4x64x4096 (![] : Fin 0 → Fin S4x64x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x128_S64x128_S4x4096x64_2_1_01_0_n_n_wf : DotDims.WF S4x4096x128 S64x128 S4x4096x64 [2] [1] [0, 1] [0] [] []
  dot_S4x4096x128_S128x128_S4x4096x128_2_1_01_0_n_n_wf : DotDims.WF S4x4096x128 S128x128 S4x4096x128 [2] [1] [0, 1] [0] [] []
  dot_S4x4096x64_S4x64x4096_S4x4096x4096_2_1_1_2_0_0_wf : DotDims.WF S4x4096x64 S4x64x4096 S4x4096x4096 [2] [1] [1] [2] [0] [0]
  dot_S4x4096x4096_S4x4096x128_S4x4096x128_2_1_1_2_0_0_wf : DotDims.WF S4x4096x4096 S4x4096x128 S4x4096x128 [2] [1] [1] [2] [0] [0]

variable [Facts₀]

def dot_S4x4096x128_S64x128_S4x4096x64_2_1_01_0_n_n : DotDims S4x4096x128 S64x128 S4x4096x64 where
  lhsContracting := [2]
  rhsContracting := [1]
  lhsNonContracting := [0, 1]
  rhsNonContracting := [0]
  lhsBatch := []
  rhsBatch := []
  wf := dot_S4x4096x128_S64x128_S4x4096x64_2_1_01_0_n_n_wf
def dot_S4x4096x128_S128x128_S4x4096x128_2_1_01_0_n_n : DotDims S4x4096x128 S128x128 S4x4096x128 where
  lhsContracting := [2]
  rhsContracting := [1]
  lhsNonContracting := [0, 1]
  rhsNonContracting := [0]
  lhsBatch := []
  rhsBatch := []
  wf := dot_S4x4096x128_S128x128_S4x4096x128_2_1_01_0_n_n_wf
def dot_S4x4096x64_S4x64x4096_S4x4096x4096_2_1_1_2_0_0 : DotDims S4x4096x64 S4x64x4096 S4x4096x4096 where
  lhsContracting := [2]
  rhsContracting := [1]
  lhsNonContracting := [1]
  rhsNonContracting := [2]
  lhsBatch := [0]
  rhsBatch := [0]
  wf := dot_S4x4096x64_S4x64x4096_S4x4096x4096_2_1_1_2_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.LibHostSoftmax.lean ====
/-
  A row softmax on the extended reals, and the host operations that compute it over a stack of matrices, read at an index.

  For a row T of n extended reals the row maximum is the running maximum from −∞, and the softmax entry at q is
  exp (T q − max) divided by the sum over the row of those exponentials.

  Layouts: a scalar spread over any shape; a [G, a] array given a trailing unit axis and spread over b columns reads
  (g, p) at (g, p, q); an [a, b] matrix given a leading unit axis and spread over G members reads (p, q) at (g, p, q).
  Reductions along the last axis of a [G, a, b] stack at (g, p): the maximum is the running maximum of the row from the
  initial value, the sum is the initial value plus the row's sum. And the row softmax of a stack assembled from these:
  the host takes the row maximum from −∞ (and once more against −∞), spreads it, subtracts, exponentiates, sums the row
  from 0, spreads the sum and divides; at (g, p, q) that is the softmax of row (g, p) at q.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Attn

open Idealize.ShloMosaic

/-- The pattern of −∞ denotes the bottom element. -/
theorem ofBits_negInf : Ideal.ofBits .f32 0xFF800000#32 = (⊥ : EReal) := by
  simp [Ideal.ofBits, Ideal.ieee]

/-- Taking the maximum with −∞ changes nothing. -/
theorem max_negInf (y : EReal) : max (Ideal.ofBits .f32 0xFF800000#32) y = y := by
  rw [ofBits_negInf]; exact max_eq_right bot_le

/-- The running maximum of a row from −∞. -/
def rowMax {n : ℕ} (T : Fin n → EReal) : EReal :=
  (Finset.univ : Finset (Fin n)).fold max (Ideal.ofBits .f32 0xFF800000#32) T

/-- The softmax of a row, at q. -/
def sm {n : ℕ} (T : Fin n → EReal) (q : Fin n) : EReal :=
  Ideal.div (Ideal.exp (T q - rowMax T)) (∑ q' : Fin n, Ideal.exp (T q' - rowMax T))

end Cert.Attn

namespace Cert.HSoft

open Idealize.ShloMosaic Idealize.ShloMosaic.ValueIdx

/-- A coordinate is 0 when its axis has extent 1. -/
theorem val_ite {n : ℕ} (i : Fin n) : i.val = if n = 1 then 0 else i.val := by
  split
  · have := i.isLt; omega
  · rfl

variable {α : Type}

/-- A scalar spread over a shape reads the scalar everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- A [G, a] array given a trailing unit axis and spread over b columns reads, at (g, p, q), the entry (g, p). -/
theorem bcast_col_apply {G a b : ℕ} (v : (⟨2, ![G, a]⟩ : Shape).Idx → α)
    (h1 : (⟨2, ![G, a]⟩ : Shape).BroadcastsInDim ⟨3, ![G, a, 1]⟩ (![0, 1] : Fin 2 → Fin 3))
    (h2 : (⟨3, ![G, a, 1]⟩ : Shape).BroadcastsInDim ⟨3, ![G, a, b]⟩ (![0, 1, 2] : Fin 3 → Fin 3))
    (g : Fin G) (p : Fin a) (q : Fin b) :
    broadcastInDim ⟨3, ![G, a, b]⟩ ![0, 1, 2] h2 (broadcastInDim ⟨3, ![G, a, 1]⟩ ![0, 1] h1 v) (ix3 g p q) = v (ix2 g p) :=
  (broadcastInDim_apply _ h2 _ (ix3 g p q) (ix3 g p (0 : Fin 1)) fun ax => by
      match ax with
      | ⟨0, _⟩ => exact val_ite g
      | ⟨1, _⟩ => exact val_ite p
      | ⟨2, _⟩ => rfl).trans
    (broadcastInDim_apply _ h1 _ (ix3 g p (0 : Fin 1)) (ix2 g p) fun ax => by
      match ax with
      | ⟨0, _⟩ => exact val_ite g
      | ⟨1, _⟩ => exact val_ite p)

/-- An [a, b] matrix given a leading unit axis and spread over G members reads, at (g, p, q), the entry (p, q). -/
theorem bcast_mat_apply {G a b : ℕ} (v : (⟨2, ![a, b]⟩ : Shape).Idx → α)
    (h1 : (⟨2, ![a, b]⟩ : Shape).BroadcastsInDim ⟨3, ![1, a, b]⟩ (![1, 2] : Fin 2 → Fin 3))
    (h2 : (⟨3, ![1, a, b]⟩ : Shape).BroadcastsInDim ⟨3, ![G, a, b]⟩ (![0, 1, 2] : Fin 3 → Fin 3))
    (g : Fin G) (p : Fin a) (q : Fin b) :
    broadcastInDim ⟨3, ![G, a, b]⟩ ![0, 1, 2] h2 (broadcastInDim ⟨3, ![1, a, b]⟩ ![1, 2] h1 v) (ix3 g p q) = v (ix2 p q) :=
  (broadcastInDim_apply _ h2 _ (ix3 g p q) (ix3 (0 : Fin 1) p q) fun ax => by
      match ax with
      | ⟨0, _⟩ => rfl
      | ⟨1, _⟩ => exact val_ite p
      | ⟨2, _⟩ => exact val_ite q).trans
    (broadcastInDim_apply _ h1 _ (ix3 (0 : Fin 1) p q) (ix2 p q) fun ax => by
      match ax with
      | ⟨0, _⟩ => exact val_ite p
      | ⟨1, _⟩ => exact val_ite q)

/-- The index (g, p) of the reduced stack with the last coordinate put back. -/
theorem lift_last {G a b : ℕ} (h : (⟨3, ![G, a, b]⟩ : Shape).Reduces [2] ⟨2, ![G, a]⟩) (g : Fin G) (p : Fin a)
    (k : Fin ((⟨3, ![G, a, b]⟩ : Shape).size 2)) : h.lift (ix2 g p) k = ix3 g p (⟨k.val, k.isLt⟩ : Fin b) := by
  funext ax; apply Fin.ext
  match ax with
  | ⟨0, _⟩ => rfl
  | ⟨1, _⟩ => rfl
  | ⟨2, _⟩ => rfl

/-- The host's maximum along the last axis of a stack, at (g, p): the running maximum of the row from the initial value. -/
theorem reduce_max_last_apply {G a b : ℕ} (A : FVec Ideal ⟨3, ![G, a, b]⟩ .f32) (init : (⟨0, ![]⟩ : Shape).Idx → Ideal .f32)
    (h' : (⟨3, ![G, a, b]⟩ : Shape).ReducesTo [2] ⟨2, ![G, a]⟩) (h : (⟨3, ![G, a, b]⟩ : Shape).Reduces [2] ⟨2, ![G, a]⟩)
    (hu : 0 < (⟨0, ![]⟩ : Shape).numel) (g : Fin G) (p : Fin a) :
    Host.reduce FloatOps.maximumf A init h' hu (ix2 g p)
      = (Finset.univ : Finset (Fin b)).fold max (init ix0) (fun q => A (ix3 g p q)) := by
  rw [Host.reduce_eq_fold_single FloatOps.maximumf A init h' h hu]
  have hf : (A ∘ h.lift (ix2 g p)) = fun q : Fin b => A (ix3 g p q) := funext fun k => congrArg A (lift_last h g p k)
  have hi : init (Shape.Idx.first hu) = init ix0 := congrArg init (funext fun ax => ax.elim0)
  rw [hi]
  exact congrArg (fun f => Finset.fold max (init ix0) f (Finset.univ : Finset (Fin b))) hf

/-- The host's sum along the last axis of a stack, at (g, p): the initial value plus the row's sum. -/
theorem reduce_add_last_apply {G a b : ℕ} (A : FVec Ideal ⟨3, ![G, a, b]⟩ .f32) (init : (⟨0, ![]⟩ : Shape).Idx → Ideal .f32)
    (h' : (⟨3, ![G, a, b]⟩ : Shape).ReducesTo [2] ⟨2, ![G, a]⟩) (h : (⟨3, ![G, a, b]⟩ : Shape).Reduces [2] ⟨2, ![G, a]⟩)
    (hu : 0 < (⟨0, ![]⟩ : Shape).numel) (g : Fin G) (p : Fin a) :
    Host.reduceAdd A init h' hu (ix2 g p) = init ix0 + ∑ q : Fin b, A (ix3 g p q) := by
  show Ideal.hostReduceAdd h' A (init (Shape.Idx.first hu)) (ix2 g p) = _
  rw [Ideal.hostReduceAdd_single h' h]
  have hi : init (Shape.Idx.first hu) = init ix0 := congrArg init (funext fun ax => ax.elim0)
  rw [hi]
  exact congrArg (init ix0 + ·) (Finset.sum_congr rfl fun k _ => congrArg A (lift_last h g p k))

/-- The host's exponential of a vector, at an index. -/
theorem hexp_apply {s : Shape} (v : FVec Ideal s .f32) (i : s.Idx) : Host.exp v i = Ideal.exp (v i) := rfl

/-- The host's quotient of two vectors, at an index. -/
theorem hdivf_apply {s : Shape} (u v : FVec Ideal s .f32) (i : s.Idx) : Host.divf u v i = Ideal.div (u i) (v i) := rfl

/-- The row softmax of a stack as the host computes it — row maximum from −∞ (and once more against −∞), spread, subtract,
    exponentiate, row sum from 0, spread, divide — at (g, p, q). -/
theorem softmax_apply {G a b : ℕ} (A : FVec Ideal ⟨3, ![G, a, b]⟩ .f32)
    (h' : (⟨3, ![G, a, b]⟩ : Shape).ReducesTo [2] ⟨2, ![G, a]⟩) (h : (⟨3, ![G, a, b]⟩ : Shape).Reduces [2] ⟨2, ![G, a]⟩)
    (hu : 0 < (⟨0, ![]⟩ : Shape).numel)
    (h0 : (⟨0, ![]⟩ : Shape).BroadcastsInDim ⟨2, ![G, a]⟩ (![] : Fin 0 → Fin 2))
    (h1 : (⟨2, ![G, a]⟩ : Shape).BroadcastsInDim ⟨3, ![G, a, 1]⟩ (![0, 1] : Fin 2 → Fin 3))
    (h2 : (⟨3, ![G, a, 1]⟩ : Shape).BroadcastsInDim ⟨3, ![G, a, b]⟩ (![0, 1, 2] : Fin 3 → Fin 3))
    (g : Fin G) (p : Fin a) (q : Fin b) :
    Host.divf (Host.exp (subf A (broadcastInDim ⟨3, ![G, a, b]⟩ ![0, 1, 2] h2 (broadcastInDim ⟨3, ![G, a, 1]⟩ ![0, 1] h1
        (maximumf (broadcastInDim ⟨2, ![G, a]⟩ ![] h0 (constant (F := Ideal) ⟨0, ![]⟩ .f32 0xFF800000#32))
          (Host.reduce FloatOps.maximumf A (constant (F := Ideal) ⟨0, ![]⟩ .f32 0xFF800000#32) h' hu))))))
      (broadcastInDim ⟨3, ![G, a, b]⟩ ![0, 1, 2] h2 (broadcastInDim ⟨3, ![G, a, 1]⟩ ![0, 1] h1
        (Host.reduceAdd (Host.exp (subf A (broadcastInDim ⟨3, ![G, a, b]⟩ ![0, 1, 2] h2 (broadcastInDim ⟨3, ![G, a, 1]⟩ ![0, 1] h1
          (maximumf (broadcastInDim ⟨2, ![G, a]⟩ ![] h0 (constant (F := Ideal) ⟨0, ![]⟩ .f32 0xFF800000#32))
            (Host.reduce FloatOps.maximumf A (constant (F := Ideal) ⟨0, ![]⟩ .f32 0xFF800000#32) h' hu))))))
          (constant (F := Ideal) ⟨0, ![]⟩ .f32 0x00000000#32) h' hu))) (ix3 g p q)
    = Cert.Attn.sm (fun q' => A (ix3 g p q')) q := by
  have hM : ∀ q' : Fin b, (broadcastInDim ⟨3, ![G, a, b]⟩ ![0, 1, 2] h2 (broadcastInDim ⟨3, ![G, a, 1]⟩ ![0, 1] h1
        (maximumf (broadcastInDim ⟨2, ![G, a]⟩ ![] h0 (constant (F := Ideal) ⟨0, ![]⟩ .f32 0xFF800000#32))
          (Host.reduce FloatOps.maximumf A (constant (F := Ideal) ⟨0, ![]⟩ .f32 0xFF800000#32) h' hu)))) (ix3 g p q')
        = Cert.Attn.rowMax (fun q'' => A (ix3 g p q'')) := by
    intro q'
    rw [bcast_col_apply, maximumf_apply, bcast_scalar_apply, reduce_max_last_apply A _ h' h hu]
    exact Cert.Attn.max_negInf _
  rw [hdivf_apply, hexp_apply, subf_apply, hM, bcast_col_apply, reduce_add_last_apply _ _ h' h hu]
  unfold Cert.Attn.sm
  refine congrArg (Ideal.div _) ?_
  show Ideal.ofBits .f32 0x00000000#32 + _ = _
  rw [Ideal.ofBits_zero_f32, zero_add]
  refine Finset.sum_congr rfl fun q' _ => ?_
  rw [hexp_apply, subf_apply, hM]

end Cert.HSoft

end
-- ==== Proof.Spec.lean ====
/-
  Attention whose keys are masked by a lower triangle taken on the TRANSPOSED key matrix, for one member of the batch,
  as a function of the member's rows and the three weights, on the extended reals.

  For X : 4096 × 128 and weights Wk, Wq : 64 × 128, Wv : 128 × 128, write  proj X W s k = Σ_e X[s, e] · W[k, e]  (the row
  s against the row k). The masked key at position t and feature d keeps the key only when t ≤ d, so it vanishes for
  every position t ≥ 64. The score of query s against position t is  Σ_d proj X Wq s d · mkey t d,  the weights are the
  softmax of the row of 4096 scores, and the result at (s, v) is  Σ_t softmax_t · proj X Wv t v.

  The second form here reads only the first 128 positions of the scores: the row maximum over those 128, their
  exponentials, and ONE weight exp (0 − max) shared by the remaining 3968 positions (whose scores are all zero); the
  values of those positions enter through the sum of their rows, taken as the sum of all rows less the sum of the first
  128 rows, times Wv. That the two forms agree on real entries is a separate module.
-/
import Idealize.ShloMosaic.PureOps.Ideal
import Idealize.ShloMosaic.Lib.ValueIdx
import proofs.«176128_j20323785245297_2_alg».proof.Proof.LibHostSoftmax

noncomputable section

open scoped BigOperators

namespace Cert.MAttn

open Idealize.ShloMosaic Idealize.ShloMosaic.ValueIdx

/-- Row s of X against row k of an n × 128 weight. -/
def proj {n : ℕ} (X : Fin 4096 → Fin 128 → EReal) (W : Fin n → Fin 128 → EReal) (s : Fin 4096) (k : Fin n) : EReal :=
  ∑ e : Fin 128, X s e * W k e

/-- The key at position t, feature d, kept only when t ≤ d. -/
def mkey (X : Fin 4096 → Fin 128 → EReal) (Wk : Fin 64 → Fin 128 → EReal) (t : Fin 4096) (d : Fin 64) : EReal :=
  if t.val ≤ d.val then proj X Wk t d else 0

/-- The score of query s against position t. -/
def score (X : Fin 4096 → Fin 128 → EReal) (Wk Wq : Fin 64 → Fin 128 → EReal) (s t : Fin 4096) : EReal :=
  ∑ d : Fin 64, proj X Wq s d * mkey X Wk t d

/-- The attention output at (s, v): the softmax of the row of 4096 scores against the values. -/
def attn (X : Fin 4096 → Fin 128 → EReal) (Wk Wq : Fin 64 → Fin 128 → EReal) (Wv : Fin 128 → Fin 128 → EReal)
    (s : Fin 4096) (v : Fin 128) : EReal :=
  ∑ t : Fin 4096, Cert.Attn.sm (score X Wk Wq s) t * proj X Wv t v

/-- The first 128 positions among the 4096. -/
def up (t : Fin 128) : Fin 4096 := ⟨t.val, lt_of_lt_of_le t.isLt (by norm_num)⟩

/-- The maximum of the first 128 scores of row s (from −∞). -/
def wmax (X : Fin 4096 → Fin 128 → EReal) (Wk Wq : Fin 64 → Fin 128 → EReal) (s : Fin 4096) : EReal :=
  Cert.Attn.rowMax (fun t : Fin 128 => score X Wk Wq s (up t))

/-- The exponential of a score of the first 128, less that maximum. -/
def wexp (X : Fin 4096 → Fin 128 → EReal) (Wk Wq : Fin 64 → Fin 128 → EReal) (s : Fin 4096) (t : Fin 128) : EReal :=
  Ideal.exp (score X Wk Wq s (up t) - wmax X Wk Wq s)

/-- The weight every position past the first 128 shares: its score is zero. -/
def tailw (X : Fin 4096 → Fin 128 → EReal) (Wk Wq : Fin 64 → Fin 128 → EReal) (s : Fin 4096) : EReal :=
  Ideal.exp (0 - wmax X Wk Wq s)

/-- The sum of the rows past the first 128, at column e: all rows less the first 128. -/
def tailrow (X : Fin 4096 → Fin 128 → EReal) (e : Fin 128) : EReal :=
  (∑ t : Fin 4096, X t e) - ∑ t : Fin 128, X (up t) e

/-- The windowed form at (s, v): numerator over the first 128 positions plus the shared weight times the tail rows'
    values, over the window's sum of exponentials plus 3968 shared weights (0x45780000 is 3968). -/
def kattn (X : Fin 4096 → Fin 128 → EReal) (Wk Wq : Fin 64 → Fin 128 → EReal) (Wv : Fin 128 → Fin 128 → EReal)
    (s : Fin 4096) (v : Fin 128) : EReal :=
  Ideal.div
    ((∑ t : Fin 128, wexp X Wk Wq s t * proj X Wv (up t) v) + tailw X Wk Wq s * ∑ e : Fin 128, tailrow X e * Wv v e)
    ((∑ t : Fin 128, wexp X Wk Wq s t) + Ideal.ofBits .f32 0x45780000#32 * tailw X Wk Wq s)

/-- Member b of a [4, 4096, 128] array as a family of rows. -/
def member (x : (⟨3, ![4, 4096, 128]⟩ : Shape).Idx → EReal) (b : Fin 4) : Fin 4096 → Fin 128 → EReal :=
  fun s e => x (ix3 b s e)

/-- An n × 128 array as a family of rows. -/
def rows {n : ℕ} (W : (⟨2, ![n, 128]⟩ : Shape).Idx → EReal) : Fin n → Fin 128 → EReal := fun k e => W (ix2 k e)

/-- The whole result array: member by member, the attention output. -/
def G (x : (⟨3, ![4, 4096, 128]⟩ : Shape).Idx → EReal) (Wk Wq : (⟨2, ![64, 128]⟩ : Shape).Idx → EReal)
    (Wv : (⟨2, ![128, 128]⟩ : Shape).Idx → EReal) : (⟨3, ![4, 4096, 128]⟩ : Shape).Idx → EReal :=
  fun i => attn (member x (i 0)) (rows Wk) (rows Wq) (rows Wv) (i 1) (i 2)

theorem G_apply (x : (⟨3, ![4, 4096, 128]⟩ : Shape).Idx → EReal) (Wk Wq : (⟨2, ![64, 128]⟩ : Shape).Idx → EReal)
    (Wv : (⟨2, ![128, 128]⟩ : Shape).Idx → EReal) (b : Fin 4) (s : Fin 4096) (v : Fin 128) :
    G x Wk Wq Wv (ix3 b s v) = attn (member x b) (rows Wk) (rows Wq) (rows Wv) s v := rfl

end Cert.MAttn

end
-- ==== Proof.LibAxisReduce.lean ====
/-
  A matrix reduced along one of its two axes, read at a coordinate, at the exact (extended-real) reading of the floats.

  For an a × b matrix M: the sum over the rows (axis 0) at column n is Σ_r M[r, n]; the sum over the columns (axis 1)
  at row r is Σ_c M[r, c]; and the maximum over the rows at column n is the running maximum of M[·, n] from the
  accumulator's value. These are the library's one-axis reduction laws with the inserted index written by coordinates,
  stated for any extents a and b.
-/
import Idealize.ShloMosaic.PureOps.Ideal.Laws
import Idealize.ShloMosaic.Lib.ValueIdx

noncomputable section

open scoped BigOperators

namespace Cert.LibAxisReduce

open Idealize.ShloMosaic Idealize.ShloMosaic.ValueIdx

variable {a b : ℕ} {φ : FTy}

/-- Sum over the rows of an a × b matrix, at column n. -/
theorem add_rows_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (n : Fin b) :
    multiReduction .add [0] ⟨1, ![b]⟩ src acc h hφ hacc (ix1 n) = ∑ r : Fin a, src (ix2 r n) :=
  (Ideal.multiReduction_add_single src acc h hφ hacc (ix1 n)).trans
    (Finset.sum_congr rfl fun r _ => congrArg src
      (funext fun ax => Fin.ext (by match ax with | ⟨0, _⟩ => rfl | ⟨1, _⟩ => rfl)))

/-- Sum over the columns of an a × b matrix, at row r. -/
theorem add_cols_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src
      (funext fun ax => Fin.ext (by match ax with | ⟨0, _⟩ => rfl | ⟨1, _⟩ => rfl)))

/-- Maximum over the rows of an a × b matrix, at column n: the running maximum from the accumulator's value. -/
theorem max_rows_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (n : Fin b) :
    multiReduction .maximumf [0] ⟨1, ![b]⟩ src acc h hφ hacc (ix1 n)
      = (Finset.univ : Finset (Fin a)).fold max (Ideal.ofBits φ acc) (fun r => src (ix2 r n)) :=
  (Ideal.multiReduction_maximumf_single src acc h hφ hacc (ix1 n)).trans
    (Finset.fold_congr fun r _ => congrArg src
      (funext fun ax => Fin.ext (by match ax with | ⟨0, _⟩ => rfl | ⟨1, _⟩ => rfl)))

end Cert.LibAxisReduce

end
-- ==== Proof.KerLayout.lean ====
/-
  The body's views of one member's block, read at an index.

  The block is a [1, 4096, 128] array; the body drops the unit axis, takes the first 128 rows as a slice, and sums all
  4096 rows column by column. At (s, e) the matrix view is the block at (0, s, e); the slice's row t is row t of the
  matrix; the column sum at e is the sum over the 4096 rows of the entry at column e.
-/
import proofs.«176128_j20323785245297_2_alg».proof.Proof.Gen.KernelIdeal.Skeleton
import proofs.«176128_j20323785245297_2_alg».proof.Proof.Spec
import proofs.«176128_j20323785245297_2_alg».proof.Proof.LibAxisReduce
import Idealize.ShloMosaic.Lib.ValueLayout
import Idealize.ShloMosaic.Lib.Pipeline.Value

noncomputable section

open scoped BigOperators

namespace Cert.MAttn.Ker

open Idealize.ShloMosaic Idealize.ShloMosaic.ValueIdx Cert.KernelIdeal Cert.KernelIdeal.Gen Cert.MAttn

/-- The rows of a [1, 4096, 128] block. -/
def blockRows (v0 : FVec Ideal S1x4096x128 .f32) : Fin 4096 → Fin 128 → EReal := fun s e => v0 (ix3 (0 : Fin 1) s e)

/-- The block viewed as a 4096 × 128 matrix reads row s, column e of the block. -/
theorem pay2_apply (v0 : FVec Ideal S1x4096x128 .f32) (s : Fin 4096) (e : Fin 128) :
    k0_pay2 (F := Ideal) v0 (ix2 s e) = blockRows v0 s e := by
  unfold k0_pay2
  exact shapeCast_1ab_ab_apply v0 _ s e

/-- The slice of the first 128 rows reads, at (t, e), row t of the block. -/
theorem pay3_apply (v0 : FVec Ideal S1x4096x128 .f32) (t : Fin 128) (e : Fin 128) :
    k0_pay3 (F := Ideal) v0 (ix2 t e) = blockRows v0 (up t) e := by
  unfold k0_pay3
  have hk : ∀ a : Fin S4096x128.rank, ((ix2 (up t) e : S4096x128.Idx) a).val
      = (![0, 0] : Fin S4096x128.rank → Nat) a + ((ix2 t e : S128x128.Idx) (a.cast slices_S4096x128_o0_0_S128x128.1.symm)).val := by
    intro a
    match a with
    | ⟨0, _⟩ => show t.val = 0 + t.val; omega
    | ⟨1, _⟩ => show e.val = 0 + e.val; omega
  exact (extractStridedSlice_apply (s := S4096x128) (t := S128x128) ![0, 0] (k0_pay2 (F := Ideal) v0)
    slices_S4096x128_o0_0_S128x128 (ix2 t e) (ix2 (up t) e) hk).trans (pay2_apply v0 (up t) e)

/-- The column sums of the block: at e, the sum over the 4096 rows. -/
theorem pay11_apply (v0 : FVec Ideal S1x4096x128 .f32) (e : Fin 128) :
    k0_pay11 (F := Ideal) v0 (ix1 e) = ∑ t : Fin 4096, blockRows v0 t e := by
  unfold k0_pay11
  exact (Cert.LibAxisReduce.add_rows_apply (k0_pay2 (F := Ideal) v0) _ _ _ _ e).trans
    (Finset.sum_congr rfl fun t _ => pay2_apply v0 t e)

end Cert.MAttn.Ker

end
-- ==== Proof.LibMatmulNT.lean ====
/-
  Two general facts about values read at an index, at the exact (extended-real) reading of the float operations.

  * The product `A · Bᵀ` of an `m × k` and an `n × k` matrix — a matrix unit's product whose dimension numbers contract
    the LAST axis of both operands and keep no batch axis — accumulated into the zero matrix, read at `(a, b)`, is the
    inner product of row `a` of `A` with row `b` of `B`:  Σ_{c < k} A[a, c] · B[b, c].
  * A block `[1, 1, a, b]` viewed as the matrix `[a, b]` reads `(0, 0, i, j)` at `(i, j)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Gram

open Idealize.ShloMosaic Idealize.ShloMosaic.ValueIdx

/-- `A · Bᵀ` into the zero accumulator, read at `(a, b)`: the inner product of the two rows. `w` is the record's
    well-formedness, which a program states. -/
theorem matmul_nt_zero_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A `[1, 1, a, b]` block cast to the matrix `[a, b]` reads, at `(i, j)`, the block at `(0, 0, i, j)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

end Cert.Gram

end
-- ==== Proof.KerScore.lean ====
/-
  The window's scores, read at an index.

  The body multiplies the block's rows by Wqᵀ (the queries, 4096 × 64) and the first 128 rows by Wkᵀ (the keys, 128 × 64),
  keeps the key at (t, d) only where the column counter d is at least the row counter t, and multiplies the queries by the
  masked keys' transpose. At (s, t) that is the score of query s against position t of the first 128: the sum over the
  64 features d of (row s · row d of Wq) times the key (row t · row d of Wk) kept when t ≤ d.

  The counters are 32-bit words of numbers below 2^31, so the signed comparison of the words is the comparison of the numbers.
-/
import proofs.«176128_j20323785245297_2_alg».proof.Proof.KerLayout
import proofs.«176128_j20323785245297_2_alg».proof.Proof.LibMatmulNT
import Idealize.ShloMosaic.Lib.Affine

noncomputable section

open scoped BigOperators

namespace Cert.MAttn.Ker

open Idealize.ShloMosaic Idealize.ShloMosaic.ValueIdx Cert.KernelIdeal Cert.KernelIdeal.Gen Cert.MAttn

/-- For a, k < 2^31 the signed "a ≥ k" of the two words is k ≤ a. -/
theorem cmpi_sge_ofNat_iff (a k : Nat) (ha : a < 2 ^ 31) (hk : k < 2 ^ 31) :
    IntOp.cmpi .sge (BitVec.ofNat 32 a) (BitVec.ofNat 32 k) = 1#1 ↔ k ≤ a := by
  have e1 := BitVec.toInt_eq_toNat_cond (BitVec.ofNat 32 a)
  have e2 := BitVec.toInt_eq_toNat_cond (BitVec.ofNat 32 k)
  rw [BitVec.toNat_ofNat] at e1 e2
  rw [IntOp.cmpi_sge]
  omega

/-- The queries: row s of the block against row d of the weight. -/
theorem query_apply (v0 : FVec Ideal S1x4096x128 .f32) (v2 : FVec Ideal S64x128 .f32) (s : Fin 4096) (d : Fin 64) :
    matmul dot_S4096x128_S64x128_S4096x64_1_1_0_0_n_n none (truncf .bf16 (k0_pay2 (F := Ideal) v0) bitsLt_bf16_f32)
        (truncf .bf16 v2 bitsLt_bf16_f32) (constant (F := Ideal) S4096x64 .f32 0x00000000#32) (ix2 s d)
      = proj (blockRows v0) (rows v2) s d :=
  (Cert.Gram.matmul_nt_zero_apply dot_S4096x128_S64x128_S4096x64_1_1_0_0_n_n_wf none
      (truncf .bf16 (k0_pay2 (F := Ideal) v0) bitsLt_bf16_f32) (truncf .bf16 v2 bitsLt_bf16_f32) s d).trans
    (Finset.sum_congr rfl fun e _ => congrArg (· * v2 (ix2 d e)) (pay2_apply v0 s e))

/-- The keys of the first 128 rows: row t against row d of the weight. -/
theorem key_apply (v0 : FVec Ideal S1x4096x128 .f32) (v3 : FVec Ideal S64x128 .f32) (t : Fin 128) (d : Fin 64) :
    matmul dot_S128x128_S64x128_S128x64_1_1_0_0_n_n none (k0_pay4 (F := Ideal) v0)
        (truncf .bf16 v3 bitsLt_bf16_f32) (constant (F := Ideal) S128x64 .f32 0x00000000#32) (ix2 t d)
      = proj (blockRows v0) (rows v3) (up t) d :=
  (Cert.Gram.matmul_nt_zero_apply dot_S128x128_S64x128_S128x64_1_1_0_0_n_n_wf none
      (k0_pay4 (F := Ideal) v0) (truncf .bf16 v3 bitsLt_bf16_f32) t d).trans
    (Finset.sum_congr rfl fun e _ => congrArg (· * v3 (ix2 d e)) (pay3_apply v0 t e))

/-- The mask: a 128 × 64 matrix kept at (t, d) where the column counter is at least the row counter, zero elsewhere. -/
theorem mask_apply (K : FVec Ideal S128x64 .f32) (t : Fin 128) (d : Fin 64) :
    select (cmpi .sge (iota .tc S128x64 32 [1] iota_S128x64_d1_w32) (iota .tc S128x64 32 [0] iota_S128x64_d0_w32)) K
        (broadcast S128x64 (Scalar.ofBits (F := Ideal) .f32 0x00000000#32)) (ix2 t d)
      = if t.val ≤ d.val then K (ix2 t d) else 0 := by
  show Scalar.select (IntOp.cmpi .sge (iota .tc S128x64 32 [1] iota_S128x64_d1_w32 (ix2 t d))
      (iota .tc S128x64 32 [0] iota_S128x64_d0_w32 (ix2 t d))) (K (ix2 t d)) (Ideal.ofBits .f32 0x00000000#32) = _
  rw [iota_single_apply, iota_single_apply, Ideal.ofBits_zero_f32]
  unfold Scalar.select
  exact if_congr (cmpi_sge_ofNat_iff d.val t.val (lt_trans d.isLt (by norm_num)) (lt_trans t.isLt (by norm_num))) rfl rfl

/-- The scores of the window at (s, t). -/
theorem pay5_apply (v0 : FVec Ideal S1x4096x128 .f32) (v2 v3 : FVec Ideal S64x128 .f32) (s : Fin 4096) (t : Fin 128) :
    k0_pay5 (F := Ideal) v0 v2 v3 (ix2 s t) = score (blockRows v0) (rows v3) (rows v2) s (up t) := by
  unfold k0_pay5
  refine (Cert.Gram.matmul_nt_zero_apply dot_S4096x64_S128x64_S4096x128_1_1_0_0_n_n_wf none _ _ s t).trans ?_
  refine Finset.sum_congr rfl fun d _ => ?_
  refine congrArg₂ (· * ·) (query_apply v0 v2 s d) ?_
  refine (mask_apply _ t d).trans ?_
  unfold mkey
  exact if_congr Iff.rfl (key_apply v0 v3 t d) rfl

end Cert.MAttn.Ker

end
-- ==== Proof.LibColumn.lean ====
/-
  Two keepdims column layouts read at an index given by coordinates.

  A length-a vector viewed as an a×1 column reads, at (i, 0), the vector at i; an a×1 column broadcast over b
  columns reads, at (p, c), the column's entry at row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibMaxCols.lean ====
/-
  A matrix's maximum along its rows' entries, read at a coordinate, at the exact (extended-real) reading of the floats.

  For an a × b matrix M the maximum over the columns (axis 1) at row r is the running maximum of M[r, ·] from the
  accumulator's value: the fold of max over the b entries of row r. This is the library's one-axis maximum law with the
  inserted index written by coordinates, stated for any extents a and b — the companion, for axis 1, of the axis-0 form.
  A softmax's row maximum is read this way.
-/
import Idealize.ShloMosaic.PureOps.Ideal.Laws
import Idealize.ShloMosaic.Lib.ValueIdx

noncomputable section

namespace Cert.LibMaxCols

open Idealize.ShloMosaic Idealize.ShloMosaic.ValueIdx

/-- Maximum over the columns of an a × b matrix, at row r: the running maximum of the row from the accumulator's
    value. -/
theorem max_cols_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun c => src (ix2 r c)) :=
  (Ideal.multiReduction_maximumf_single src acc h hφ hacc (ix1 r)).trans
    (Finset.fold_congr fun c _ => congrArg src
      (funext fun ax => Fin.ext (by match ax with | ⟨0, _⟩ => rfl | ⟨1, _⟩ => rfl)))

end Cert.LibMaxCols

end
-- ==== Proof.KerSoft.lean ====
/-
  The window's maximum, exponentials and normaliser, read at an index.

  Over the 4096 × 128 matrix of window scores the body takes each row's maximum (from −∞) as a column, subtracts it and
  exponentiates; exponentiates 0 − max as the weight every position past the window shares; and adds to the row sum of the
  exponentials 3968 times that weight. At row s these are the window maximum, the window exponentials, the shared weight
  and the normaliser of the specification's windowed form.
-/
import proofs.«176128_j20323785245297_2_alg».proof.Proof.KerScore
import proofs.«176128_j20323785245297_2_alg».proof.Proof.LibColumn
import proofs.«176128_j20323785245297_2_alg».proof.Proof.LibMaxCols
import proofs.«176128_j20323785245297_2_alg».proof.Proof.LibAxisReduce

noncomputable section

open scoped BigOperators

namespace Cert.MAttn.Ker

open Idealize.ShloMosaic Idealize.ShloMosaic.ValueIdx Cert.KernelIdeal Cert.KernelIdeal.Gen Cert.MAttn

/-- The column of row maxima: at row s, the maximum of the 128 window scores from −∞. -/
theorem pay6_apply (v0 : FVec Ideal S1x4096x128 .f32) (v2 v3 : FVec Ideal S64x128 .f32) (s : Fin 4096) (u : Fin 1) :
    k0_pay6 (F := Ideal) v0 v2 v3 (ix2 s u) = wmax (blockRows v0) (rows v3) (rows v2) s := by
  unfold k0_pay6
  refine (Cert.LibColumn.shapeCast_a_a1_apply _ _ s u).trans ?_
  refine (Cert.LibMaxCols.max_cols_apply (k0_pay5 (F := Ideal) v0 v2 v3) _ _ _ _ s).trans ?_
  unfold wmax Cert.Attn.rowMax
  exact Finset.fold_congr fun t _ => pay5_apply v0 v2 v3 s t

/-- The exponentials of the window scores less their row maximum. -/
theorem pay7_apply (v0 : FVec Ideal S1x4096x128 .f32) (v2 v3 : FVec Ideal S64x128 .f32) (s : Fin 4096) (t : Fin 128) :
    k0_pay7 (F := Ideal) v0 v2 v3 (ix2 s t) = wexp (blockRows v0) (rows v3) (rows v2) s t := by
  unfold k0_pay7 wexp
  exact congrArg Ideal.exp (congrArg₂ (· - ·) (pay5_apply v0 v2 v3 s t)
    ((Cert.LibColumn.broadcastTo_a1_ab_apply _ _ s t).trans (pay6_apply v0 v2 v3 s 0)))

/-- The exponential of the zero column less a column, at an index: over an arbitrary column. -/
theorem exp_zero_sub_apply (A : FVec Ideal S4096x1 .f32) (i : S4096x1.Idx) :
    exp (subf (broadcast S4096x1 (Scalar.ofBits (F := Ideal) .f32 0x00000000#32)) A) i = Ideal.exp (0 - A i) := by
  show Ideal.exp (Ideal.ofBits .f32 0x00000000#32 - A i) = _
  rw [Ideal.ofBits_zero_f32]

/-- The weight shared by the positions past the window: the exponential of 0 less the row maximum. -/
theorem pay8_apply (v0 : FVec Ideal S1x4096x128 .f32) (v2 v3 : FVec Ideal S64x128 .f32) (s : Fin 4096) (u : Fin 1) :
    k0_pay8 (F := Ideal) v0 v2 v3 (ix2 s u) = tailw (blockRows v0) (rows v3) (rows v2) s := by
  unfold k0_pay8 tailw
  exact (exp_zero_sub_apply (k0_pay6 (F := Ideal) v0 v2 v3) (ix2 s u)).trans
    (congrArg (fun z => Ideal.exp (0 - z)) (pay6_apply v0 v2 v3 s u))

/-- The normaliser: the window's sum of exponentials plus 3968 shared weights. -/
theorem pay9_apply (v0 : FVec Ideal S1x4096x128 .f32) (v2 v3 : FVec Ideal S64x128 .f32) (s : Fin 4096) (u : Fin 1) :
    k0_pay9 (F := Ideal) v0 v2 v3 (ix2 s u)
      = (∑ t : Fin 128, wexp (blockRows v0) (rows v3) (rows v2) s t)
        + Ideal.ofBits .f32 0x45780000#32 * tailw (blockRows v0) (rows v3) (rows v2) s := by
  unfold k0_pay9
  show shapeCast S4096x1 (multiReduction .add [1] S4096 (k0_pay7 (F := Ideal) v0 v2 v3) 0x00000000#32
        reduces_S4096x128_S4096 (.inl rfl) rfl) shapeCasts_S4096_S4096x1 (ix2 s u)
      + Ideal.ofBits .f32 0x45780000#32 * k0_pay8 (F := Ideal) v0 v2 v3 (ix2 s u) = _
  rw [pay8_apply]
  exact congrArg (· + Ideal.ofBits .f32 0x45780000#32 * tailw (blockRows v0) (rows v3) (rows v2) s)
    (((Cert.LibColumn.shapeCast_a_a1_apply _ _ s u).trans
        (Cert.LibAxisReduce.add_cols_apply (k0_pay7 (F := Ideal) v0 v2 v3) _ _ _ _ s)).trans
      (Finset.sum_congr rfl fun t _ => pay7_apply v0 v2 v3 s t))

end Cert.MAttn.Ker

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.KerNumer.lean ====
/-
  The window's numerator, read at an index.

  The body multiplies the first 128 rows of the block by Wvᵀ (the window's values, 128 × 128) and the matrix of window
  exponentials by those values. At (s, v) that is the sum over the 128 window positions t of the exponential at (s, t)
  times the value of position t at column v.
-/
import proofs.«176128_j20323785245297_2_alg».proof.Proof.KerSoft
import proofs.«176128_j20323785245297_2_alg».proof.Proof.LibPlainDot

noncomputable section

open scoped BigOperators

namespace Cert.MAttn.Ker

open Idealize.ShloMosaic Idealize.ShloMosaic.ValueIdx Cert.KernelIdeal Cert.KernelIdeal.Gen Cert.MAttn

/-- A plain product M×K by K×N of the printed dimension numbers, into a zero accumulator, at (p, q). -/
theorem plain_apply (A : FVec Ideal S4096x128 .bf16) (B : FVec Ideal S128x128 .bf16) (p : Fin 4096) (q : Fin 128) :
    matmul dot_S4096x128_S128x128_S4096x128_1_0_0_1_n_n none A B (constant (F := Ideal) S4096x128 .f32 0x00000000#32) (ix2 p q)
      = ∑ l : Fin 128, A (ix2 p l) * B (ix2 l q) :=
  Cert.LibPlainDot.matmul_zero_apply (M := 4096) (K := 128) (N := 128) none A B p q

/-- The window's values: row t of the first 128 against row v of the weight. -/
theorem value_apply (v0 : FVec Ideal S1x4096x128 .f32) (v4 : FVec Ideal S128x128 .f32) (t : Fin 128) (v : Fin 128) :
    matmul dot_S128x128_S128x128_S128x128_1_1_0_0_n_n none (k0_pay4 (F := Ideal) v0)
        (truncf .bf16 v4 bitsLt_bf16_f32) (constant (F := Ideal) S128x128 .f32 0x00000000#32) (ix2 t v)
      = proj (blockRows v0) (rows v4) (up t) v :=
  (Cert.Gram.matmul_nt_zero_apply dot_S128x128_S128x128_S128x128_1_1_0_0_n_n_wf none
      (k0_pay4 (F := Ideal) v0) (truncf .bf16 v4 bitsLt_bf16_f32) t v).trans
    (Finset.sum_congr rfl fun e _ => congrArg (· * v4 (ix2 v e)) (pay3_apply v0 t e))

/-- The numerator over the window at (s, v). -/
theorem pay10_apply (v0 : FVec Ideal S1x4096x128 .f32) (v2 v3 : FVec Ideal S64x128 .f32) (v4 : FVec Ideal S128x128 .f32)
    (s : Fin 4096) (v : Fin 128) :
    k0_pay10 (F := Ideal) v0 v2 v3 v4 (ix2 s v)
      = ∑ t : Fin 128, wexp (blockRows v0) (rows v3) (rows v2) s t * proj (blockRows v0) (rows v4) (up t) v := by
  unfold k0_pay10
  refine (plain_apply _ _ s v).trans ?_
  exact Finset.sum_congr rfl fun t _ => congrArg₂ (· * ·) (pay7_apply v0 v2 v3 s t) (value_apply v0 v4 t v)

end Cert.MAttn.Ker

end
-- ==== Proof.KerOut.lean ====
/-
  What the body stores, read at an index: the specification's windowed form of the member's block.

  The body's last steps: the column sums of all 4096 rows less the column sums of the first 128 rows give the sum of the
  rows past the window; that row times Wvᵀ (a 1 × 128 by 128 × 128 product) is the summed value of those positions; the
  result at (s, v) is the window's numerator plus the shared weight of row s times that summed value at v, divided by
  the normaliser of row s. The store writes the whole [1, 4096, 128] block, so the block after the body is that value.
-/
import proofs.«176128_j20323785245297_2_alg».proof.Proof.KerNumer
import proofs.«176128_j20323785245297_2_alg».proof.Proof.Gen.KernelIdeal.Frame
import Idealize.ShloMosaic.Lib.ValueLayout
import Idealize.ShloMosaic.Lib.Pipeline.Value

noncomputable section

open scoped BigOperators

namespace Cert.MAttn.Ker

open Idealize.ShloMosaic Idealize.ShloMosaic.ValueIdx Cert.KernelIdeal Cert.KernelIdeal.Gen Cert.MAttn

theorem hz3 : (![0, 0, 0] : Fin 3 → Nat) = fun _ => 0 := funext fun a => by fin_cases a <;> rfl
theorem hz2 : (![0, 0] : Fin 2 → Nat) = fun _ => 0 := funext fun a => by fin_cases a <;> rfl

/-- The last steps over arbitrary earlier values: at (s, v), the numerator plus the shared weight times the summed value
    of the rows past the window, over the normaliser. -/
theorem pay1_apply (v4 v6 : FVec Ideal S128x128 .f32) (v29 v34 : FVec Ideal S4096x1 .f32) (v37 : FVec Ideal S4096x128 .f32)
    (v38 : FVec Ideal S128 .f32) (u : Fin 1) (s : Fin 4096) (v : Fin 128) :
    k0_pay1 (F := Ideal) v4 v6 v29 v34 v37 v38 (ix3 u s v)
      = Ideal.div (v37 (ix2 s v) + v29 (ix2 s (0 : Fin 1))
            * ∑ e : Fin 128, (v38 (ix1 e) - ∑ t : Fin 128, v6 (ix2 t e)) * v4 (ix2 v e))
          (v34 (ix2 s (0 : Fin 1))) := by
  unfold k0_pay1
  refine (shapeCast_ab_1ab_apply _ _ u s v).trans ?_
  refine congrArg₂ Ideal.div (congrArg₂ (· + ·) rfl (congrArg₂ (· * ·)
    (Cert.LibColumn.broadcastTo_a1_ab_apply v29 _ s v) ?_)) (Cert.LibColumn.broadcastTo_a1_ab_apply v34 _ s v)
  refine (broadcastTo_1b_ab_apply _ _ s v).trans ?_
  refine (Cert.Gram.matmul_nt_zero_apply dot_S1x128_S128x128_S1x128_1_1_0_0_n_n_wf (some .fp32) _ v4 (0 : Fin 1) v).trans ?_
  refine Finset.sum_congr rfl fun e _ => congrArg (· * v4 (ix2 v e)) ?_
  exact congrArg₂ (· - ·) (shapeCast_a_1a_apply v38 _ 0 e)
    ((shapeCast_a_1a_apply _ _ 0 e).trans (Cert.LibAxisReduce.add_rows_apply v6 _ _ _ _ e))

/-- The block after the body, from the four input blocks: the windowed form of the block's rows. (The second and third
    blocks are the query and the key weights, in that order.) -/
theorem out_apply (x0 : FVec Ideal S1x4096x128 .f32) (x1 x2 : FVec Ideal S64x128 .f32) (x3 : FVec Ideal S128x128 .f32)
    (u : Fin 1) (s : Fin 4096) (v : Fin 128) :
    out0_4 (F := Ideal) x0 x1 x2 x3 (ix3 u s v) = kattn (blockRows x0) (rows x2) (rows x1) (rows x3) s v := by
  unfold out0_4
  rw [View.canon_unit_zero hz3]
  simp only [View.ld_unit_zero (S := S1x4096x128) hz3, View.ld_unit_zero (S := S64x128) hz2,
    View.ld_unit_zero (S := S128x128) hz2]
  refine (pay1_apply _ _ _ _ _ _ u s v).trans ?_
  unfold kattn
  refine congrArg₂ Ideal.div (congrArg₂ (· + ·) (pay10_apply x0 x1 x2 x3 s v) (congrArg₂ (· * ·) (pay8_apply x0 x1 x2 s 0)
    (Finset.sum_congr rfl fun e _ => congrArg (· * x3 (ix2 v e)) ?_))) (pay9_apply x0 x1 x2 s 0)
  unfold tailrow
  exact congrArg₂ (· - ·) (pay11_apply x0 e) (Finset.sum_congr rfl fun t _ => pay3_apply x0 t e)

end Cert.MAttn.Ker

end
-- ==== Proof.KerBlocks.lean ====
/-
  From the four blocks to the whole result array, and the idealized kernel's run read as a value.

  The grid has four points, one per member of the batch. At point t the first input window's block is member t of x (rows
  and columns unchanged), the three weight windows' blocks are the whole weights, and the output window's block is member
  t of the result. So what point t writes back — the body's stored value of the four blocks — is block t of ONE array: at
  (b, s, v), the windowed form of member b at (s, v). The four blocks tile the result array, so after the run the array is
  that function of the arguments.
-/
import proofs.«176128_j20323785245297_2_alg».proof.Proof.KerOut
import proofs.«176128_j20323785245297_2_alg».proof.Proof.Gen.KernelIdeal.Value
import Idealize.ShloMosaic.Lib.Pipeline.Value

noncomputable section

open scoped BigOperators

namespace Cert.MAttn.KerRun

open Idealize.ShloMosaic Idealize.ShloMosaic.ValueIdx Idealize.ShloMosaic.TcCoe Idealize.SL.Sem
open Cert.KernelIdeal Cert.KernelIdeal.Gen Cert.MAttn Cert.MAttn.Ker
open Idealize.ShloMosaic.Pipeline (Dat)

variable (m : (ℓ : Loc nD τ sig) → Buf (Elt Ideal) ℓ) (ρ : Dev nD → PrngReg)

/-- The windowed form as one array: at (b, s, v), member b's windowed attention at (s, v). -/
def Gk (x : FVec Ideal S4x4096x128 .f32) (Wk Wq : FVec Ideal S64x128 .f32) (Wv : FVec Ideal S128x128 .f32) :
    FVec Ideal S4x4096x128 .f32 :=
  fun i => kattn (member x (i 0)) (rows Wk) (rows Wq) (rows Wv) (i 1) (i 2)

/-- The body's stored value of four blocks is a block of `Gk` of four arrays, when the first block is member b of the
    first array and the other three blocks are the arrays themselves (second block: the query weight, third: the key
    weight). Stated over arbitrary blocks and arrays. -/
theorem block_eq (x0 : FVec Ideal S1x4096x128 .f32) (x1 x2 : FVec Ideal S64x128 .f32) (x3 : FVec Ideal S128x128 .f32)
    (X : FVec Ideal S4x4096x128 .f32) (Wk Wq : FVec Ideal S64x128 .f32) (Wv : FVec Ideal S128x128 .f32) (b : Fin 4)
    (h0 : ∀ (s : Fin 4096) (e : Fin 128), x0 (ix3 (0 : Fin 1) s e) = X (ix3 b s e))
    (h1 : ∀ (k : Fin 64) (e : Fin 128), x1 (ix2 k e) = Wq (ix2 k e))
    (h2 : ∀ (k : Fin 64) (e : Fin 128), x2 (ix2 k e) = Wk (ix2 k e))
    (h3 : ∀ (k : Fin 128) (e : Fin 128), x3 (ix2 k e) = Wv (ix2 k e))
    (y : S1x4096x128.Idx) (k : S4x4096x128.Idx)
    (hk0 : (k 0).val = b.val) (hk1 : (k 1).val = (y 1).val) (hk2 : (k 2).val = (y 2).val) :
    out0_4 (F := Ideal) x0 x1 x2 x3 y = Gk X Wk Wq Wv k := by
  obtain ⟨u, s, v, rfl⟩ : ∃ (u : Fin 1) (s : Fin 4096) (v : Fin 128), y = ix3 u s v := ⟨y 0, y 1, y 2, eq_ix3 y⟩
  obtain ⟨b', s', v', rfl⟩ : ∃ (b' : Fin 4) (s' : Fin 4096) (v' : Fin 128), k = ix3 b' s' v' := ⟨k 0, k 1, k 2, eq_ix3 k⟩
  obtain rfl : b' = b := Fin.ext hk0
  obtain rfl : s' = s := Fin.ext hk1
  obtain rfl : v' = v := Fin.ext hk2
  refine (out_apply x0 x1 x2 x3 u s' v').trans ?_
  have e0 : blockRows x0 = member X b' := funext fun s => funext fun e => h0 s e
  have e1 : (rows x1 : Fin 64 → Fin 128 → EReal) = rows Wq := funext fun k => funext fun e => h1 k e
  have e2 : (rows x2 : Fin 64 → Fin 128 → EReal) = rows Wk := funext fun k => funext fun e => h2 k e
  have e3 : (rows x3 : Fin 128 → Fin 128 → EReal) = rows Wv := funext fun k => funext fun e => h3 k e
  rw [e0, e1, e2, e3]
  rfl

/-- The printed index maps over the four grid points: the first input window and the output window sit at member t, the
    weight windows at zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0
    ∧ t.val < 4 :=
  (by decide +kernel : ∀ t : Fin grid0.N, _)

/-- The first input window's block at point t is member t of the first argument. -/
theorem iblk0_apply (c : Dev nD) (t : Fin cfg0.N) (b : Fin 4) (hb : b.val = t.val) (s : Fin 4096) (e : Fin 128) :
    (iblk m c 0 t : FVec Ideal S1x4096x128 .f32) (ix3 (0 : Fin 1) s e)
      = (V m c main_arg0 : FVec Ideal S4x4096x128 .f32) (ix3 b s e) := by
  obtain ⟨f0, f1, f2, -⟩ := idx_facts t
  unfold iblk
  rw [View.read_apply]
  show (V m c main_arg0 : FVec Ideal S4x4096x128 .f32) _ = (V m c main_arg0 : FVec Ideal S4x4096x128 .f32) _
  congr 1
  funext a
  apply Fin.ext
  match a with
  | ⟨0, _⟩ => show win0_0.index t (0 : Fin 3) * 1 + 1 * 0 = b.val; rw [f0, hb]; omega
  | ⟨1, _⟩ => show win0_0.index t (1 : Fin 3) * 4096 + 1 * s.val = s.val; rw [f1]; omega
  | ⟨2, _⟩ => show win0_0.index t (2 : Fin 3) * 128 + 1 * e.val = e.val; rw [f2]; omega

/-- The second input window's block is the third argument (the query weight), whole. -/
theorem iblk1_apply (c : Dev nD) (t : Fin cfg0.N) (k : Fin 64) (e : Fin 128) :
    (iblk m c 1 t : FVec Ideal S64x128 .f32) (ix2 k e) = (V m c main_arg2 : FVec Ideal S64x128 .f32) (ix2 k e) := by
  obtain ⟨-, -, -, f0, f1, -⟩ := idx_facts t
  unfold iblk
  rw [View.read_apply]
  show (V m c main_arg2 : FVec Ideal S64x128 .f32) _ = (V m c main_arg2 : FVec Ideal S64x128 .f32) _
  congr 1
  funext a
  apply Fin.ext
  match a with
  | ⟨0, _⟩ => show win0_1.index t (0 : Fin 2) * 64 + 1 * k.val = k.val; rw [f0]; omega
  | ⟨1, _⟩ => show win0_1.index t (1 : Fin 2) * 128 + 1 * e.val = e.val; rw [f1]; omega

/-- The third input window's block is the second argument (the key weight), whole. -/
theorem iblk2_apply (c : Dev nD) (t : Fin cfg0.N) (k : Fin 64) (e : Fin 128) :
    (iblk m c 2 t : FVec Ideal S64x128 .f32) (ix2 k e) = (V m c main_arg1 : FVec Ideal S64x128 .f32) (ix2 k e) := by
  obtain ⟨-, -, -, -, -, f0, f1, -⟩ := idx_facts t
  unfold iblk
  rw [View.read_apply]
  show (V m c main_arg1 : FVec Ideal S64x128 .f32) _ = (V m c main_arg1 : FVec Ideal S64x128 .f32) _
  congr 1
  funext a
  apply Fin.ext
  match a with
  | ⟨0, _⟩ => show win0_2.index t (0 : Fin 2) * 64 + 1 * k.val = k.val; rw [f0]; omega
  | ⟨1, _⟩ => show win0_2.index t (1 : Fin 2) * 128 + 1 * e.val = e.val; rw [f1]; omega

/-- The fourth input window's block is the fourth argument (the value weight), whole. -/
theorem iblk3_apply (c : Dev nD) (t : Fin cfg0.N) (k : Fin 128) (e : Fin 128) :
    (iblk m c 3 t : FVec Ideal S128x128 .f32) (ix2 k e) = (V m c main_arg3 : FVec Ideal S128x128 .f32) (ix2 k e) := by
  obtain ⟨-, -, -, -, -, -, -, f0, f1, -⟩ := idx_facts t
  unfold iblk
  rw [View.read_apply]
  show (V m c main_arg3 : FVec Ideal S128x128 .f32) _ = (V m c main_arg3 : FVec Ideal S128x128 .f32) _
  congr 1
  funext a
  apply Fin.ext
  match a with
  | ⟨0, _⟩ => show win0_3.index t (0 : Fin 2) * 128 + 1 * k.val = k.val; rw [f0]; omega
  | ⟨1, _⟩ => show win0_3.index t (1 : Fin 2) * 128 + 1 * e.val = e.val; rw [f1]; omega

/-- What point t writes back is block t of `Gk` of the argument arrays as the region finds them. -/
theorem flushed_eq (c : Dev nD) (t : Fin cfg0.N) :
    (dats m 0 c).flushed 4 t = ((cfg0.win 4).blk t).view.read (Elt Ideal)
      (Gk (V m c main_arg0) (V m c main_arg1) (V m c main_arg2) (V m c main_arg3)) := by
  obtain ⟨-, -, -, -, -, -, -, -, -, g0, g1, g2, hlt⟩ := idx_facts t
  rw [Cert.KernelIdeal.Value.flushed4]
  funext j
  rw [View.read_apply]
  show out0_4 (F := Ideal) (iblk m c 0 t) (iblk m c 1 t) (iblk m c 2 t) (iblk m c 3 t) j
    = Gk (V m c main_arg0) (V m c main_arg1) (V m c main_arg2) (V m c main_arg3) (((cfg0.win 4).blk t).view.emb j)
  have hj0 : (j 0).val < 1 := (j 0).isLt
  refine block_eq (iblk m c 0 t) (iblk m c 1 t) (iblk m c 2 t) (iblk m c 3 t)
    (V m c main_arg0) (V m c main_arg1) (V m c main_arg2) (V m c main_arg3) ⟨t.val, hlt⟩
    (fun s e => iblk0_apply m c t ⟨t.val, hlt⟩ rfl s e) (fun k e => iblk1_apply m c t k e)
    (fun k e => iblk2_apply m c t k e) (fun k e => iblk3_apply m c t k e) j (((cfg0.win 4).blk t).view.emb j) ?_ ?_ ?_
  · show win0_4.index t (0 : Fin 3) * 1 + 1 * (j 0).val = t.val; rw [g0]; omega
  · show win0_4.index t (1 : Fin 3) * 4096 + 1 * (j 1).val = (j 1).val; rw [g1]; omega
  · show win0_4.index t (2 : Fin 3) * 128 + 1 * (j 2).val = (j 2).val; rw [g2]; omega

/-- An index of the result array is in point t's block iff each coordinate is in the block's range on its axis. -/
theorem mem_blk (t : Fin cfg0.N) (i : S4x4096x128.Idx) :
    i ∈ ((cfg0.win 4).blk t).view.set ↔ ∀ a : Fin 3, win0_4.index t a * S1x4096x128.size a ≤ (i a).val
      ∧ (i a).val < win0_4.index t a * S1x4096x128.size a + S1x4096x128.size a := by
  show i ∈ ((View.whole main_v0).slice (win0_4.rect t)).set ↔ _
  rw [View.set_slice_whole, Rect.mem_set_unit]
  exact Iff.rfl

/-- Every member's block is some point's: the four points sit at the four members. -/
theorem idx_onto : ∀ b : Fin 4, ∃ t : Fin cfg0.N, win0_4.index t = ![b.val, 0, 0] :=
  (by decide +kernel : ∀ b : Fin 4, ∃ t : Fin grid0.N, win0_4.index t = ![b.val, 0, 0])

/-- After the run the result array is `Gk` of the argument arrays: the four blocks cover it. -/
theorem final (c : Dev nD) : (dats m 0 c).arrAt 4 cfg0.N
    = Gk (V m c main_arg0) (V m c main_arg1) (V m c main_arg2) (V m c main_arg3) :=
  (dats m 0 c).arrAt_eq_of_cover 4 _ (fun t _ => flushed_eq m c t) fun i => by
    obtain ⟨t, ht⟩ := idx_onto (i 0)
    have q0 : win0_4.index t (0 : Fin 3) = (i 0).val := congrFun ht 0
    have q1 : win0_4.index t (1 : Fin 3) = 0 := congrFun ht 1
    have q2 : win0_4.index t (2 : Fin 3) = 0 := congrFun ht 2
    have hi1 : (i 1).val < 4096 := (i 1).isLt
    have hi2 : (i 2).val < 128 := (i 2).isLt
    refine ⟨t, flush0_4 t, ?_⟩
    rw [mem_blk]
    intro a
    match a with
    | ⟨0, _⟩ => show win0_4.index t (0 : Fin 3) * 1 ≤ (i 0).val ∧ (i 0).val < win0_4.index t (0 : Fin 3) * 1 + 1; omega
    | ⟨1, _⟩ => show win0_4.index t (1 : Fin 3) * 4096 ≤ (i 1).val ∧ (i 1).val < win0_4.index t (1 : Fin 3) * 4096 + 4096; omega
    | ⟨2, _⟩ => show win0_4.index t (2 : Fin 3) * 128 ≤ (i 2).val ∧ (i 2).val < win0_4.index t (2 : Fin 3) * 128 + 128; omega

/-- The idealized kernel's run: the result array at `Gk` of the argument arrays, the arguments unchanged. -/
theorem run : θ_run defs (onTc (τ := τ) (main (F := Ideal))) ⟨m, fun _ => 0, ρ⟩ fun r => ∀ c : Dev nD,
      r.2.mem ((c : Thread nD τ).loc main_v0)
        = Gk (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.MAttn.KerRun

end
-- ==== Proof.RefIsG.lean ====
/-
  The reference program's result is the specification.

  The reference takes a batch of four arrays x[b] of 4096 rows of 128 features and three weights. It forms the keys
  x · Wkᵀ, the queries x · Wqᵀ and the values x · Wvᵀ; transposes the keys; keeps the entry (d, t) of the transposed keys
  only where the row d is at least the column t (a lower triangle, decided by a signed comparison of the 32-bit words
  of the two positions) and puts 0 elsewhere; multiplies the queries by the masked transposed keys; takes the softmax
  of every row of 4096 scores; and multiplies the weights by the values.

  Read at an index (b, s, v) one operation at a time: the result is the sum over the positions t of the weight at
  (b, s, t) times the value at (b, t, v); the value is row t of member b against row v of Wv; the weight is the softmax
  of the row of scores at t; the score at (b, s, t) is the sum over the features d of the query at (b, s, d) times the
  masked key at (b, d, t); and the masked key is row t of member b against row d of Wk when t ≤ d and 0 otherwise.
  That is the attention output of member b at (s, v) as the specification writes it.
-/
import proofs.«176128_j20323785245297_2_alg».proof.Proof.RefRead
import proofs.«176128_j20323785245297_2_alg».proof.Proof.Spec
import proofs.«176128_j20323785245297_2_alg».proof.Proof.LibHostSoftmax
import Idealize.ShloMosaic.Lib.ValueIdx
import Idealize.ShloMosaic.Lib.Pipeline.Value
import Idealize.ShloMosaic.Lib.Affine

noncomputable section

open scoped BigOperators

namespace Cert.MAttn.Ref

open Idealize.ShloMosaic Idealize.ShloMosaic.ValueIdx Cert.ReferenceIdeal Cert.ReferenceIdeal.Gen Cert.ReferenceIdeal.ReadP

/-! ## The three products with a weight -/

/-- The keys before the transpose, at (b, t, d): row t of member b against row d of the key weight. -/
theorem keys_at (x0 : (⟨S4x4096x128, .f32⟩ : BufTy).Contents (Elt Ideal)) (x1 : (⟨S64x128, .f32⟩ : BufTy).Contents (Elt Ideal))
    (b : Fin 4) (t : Fin 4096) (d : Fin 64) :
    val_main_v0 (F := Ideal) x0 x1 (ix3 b t d) = proj (member x0 b) (rows x1) t d := by
  rw [val_main_v0_apply]
  unfold proj
  refine Finset.sum_congr rfl fun e _ => ?_
  have hl : lidx_main_v0 (ix3 b t d) e = ix3 b t e := funext fun a => Fin.ext (by
    match a with
    | ⟨0, _⟩ => rfl
    | ⟨1, _⟩ => rfl
    | ⟨2, _⟩ => rfl)
  have hr : ridx_main_v0 (ix3 b t d) e = ix2 d e := funext fun a => Fin.ext (by
    match a with
    | ⟨0, _⟩ => rfl
    | ⟨1, _⟩ => rfl)
  exact congrArg₂ (· * ·) (congrArg x0 hl) (congrArg x1 hr)

/-- The queries at (b, s, d): row s of member b against row d of the query weight. -/
theorem queries_at (x0 : (⟨S4x4096x128, .f32⟩ : BufTy).Contents (Elt Ideal)) (x2 : (⟨S64x128, .f32⟩ : BufTy).Contents (Elt Ideal))
    (b : Fin 4) (s : Fin 4096) (d : Fin 64) :
    val_main_v1 (F := Ideal) x0 x2 (ix3 b s d) = proj (member x0 b) (rows x2) s d := by
  rw [val_main_v1_apply]
  unfold proj
  refine Finset.sum_congr rfl fun e _ => ?_
  have hl : lidx_main_v1 (ix3 b s d) e = ix3 b s e := funext fun a => Fin.ext (by
    match a with
    | ⟨0, _⟩ => rfl
    | ⟨1, _⟩ => rfl
    | ⟨2, _⟩ => rfl)
  have hr : ridx_main_v1 (ix3 b s d) e = ix2 d e := funext fun a => Fin.ext (by
    match a with
    | ⟨0, _⟩ => rfl
    | ⟨1, _⟩ => rfl)
  exact congrArg₂ (· * ·) (congrArg x0 hl) (congrArg x2 hr)

/-- The values at (b, t, v): row t of member b against row v of the value weight. -/
theorem values_at (x0 : (⟨S4x4096x128, .f32⟩ : BufTy).Contents (Elt Ideal)) (x3 : (⟨S128x128, .f32⟩ : BufTy).Contents (Elt Ideal))
    (b : Fin 4) (t : Fin 4096) (v : Fin 128) :
    val_main_v2 (F := Ideal) x0 x3 (ix3 b t v) = proj (member x0 b) (rows x3) t v := by
  rw [val_main_v2_apply]
  unfold proj
  refine Finset.sum_congr rfl fun e _ => ?_
  have hl : lidx_main_v2 (ix3 b t v) e = ix3 b t e := funext fun a => Fin.ext (by
    match a with
    | ⟨0, _⟩ => rfl
    | ⟨1, _⟩ => rfl
    | ⟨2, _⟩ => rfl)
  have hr : ridx_main_v2 (ix3 b t v) e = ix2 v e := funext fun a => Fin.ext (by
    match a with
    | ⟨0, _⟩ => rfl
    | ⟨1, _⟩ => rfl)
  exact congrArg₂ (· * ·) (congrArg x0 hl) (congrArg x3 hr)

/-- The transposed keys at (b, d, t) are the keys at (b, t, d). -/
theorem keysT_at (x0 : (⟨S4x4096x128, .f32⟩ : BufTy).Contents (Elt Ideal)) (x1 : (⟨S64x128, .f32⟩ : BufTy).Contents (Elt Ideal))
    (b : Fin 4) (d : Fin 64) (t : Fin 4096) :
    val_main_v3 (F := Ideal) x0 x1 (ix3 b d t) = proj (member x0 b) (rows x1) t d := by
  have hi : idx_main_v3 (ix3 b d t) = ix3 b t d := funext fun a => Fin.ext (by
    match a with
    | ⟨0, _⟩ => rfl
    | ⟨1, _⟩ => rfl
    | ⟨2, _⟩ => rfl)
  exact ((val_main_v3_apply x0 x1 (ix3 b d t)).trans (congrArg (val_main_v0 (F := Ideal) x0 x1) hi)).trans
    (keys_at x0 x1 b t d)

/-! ## The triangle -/

/-- The 32-bit word of a natural below 2^31 reads, signed, as that natural. -/
theorem toInt_ofNat_lt (n : ℕ) (h : n < 2147483648) : (BitVec.ofNat 32 n).toInt = (n : ℤ) := by
  rw [BitVec.toInt_eq_toNat_cond, BitVec.toNat_ofNat]
  have hm : n % 2 ^ 32 = n := Nat.mod_eq_of_lt (by omega)
  rw [hm, if_pos (by omega)]

/-- The triangle's bit at row d, column t: the row's word plus 0 is at least the column's word, signed, exactly when
    t ≤ d. -/
theorem tri_bit (d : Fin 64) (t : Fin 4096) :
    val_main_call0_v4 (F := Ideal) (ix2 d t) = 1#1 ↔ t.val ≤ d.val := by
  rw [val_main_call0_v4_apply, val_main_call0_v2_apply, val_main_call0_v0_apply, val_main_call0_v1_apply,
    val_main_call0_c_apply, val_main_call0_v3_apply, IntOp.cmpi_sge]
  show (BitVec.ofNat 32 t.val).toInt ≤ (BitVec.ofNat 32 d.val + 0#32).toInt ↔ t.val ≤ d.val
  have ht : t.val < 2147483648 := lt_trans t.isLt (by norm_num)
  have hd : d.val < 2147483648 := lt_trans d.isLt (by norm_num)
  rw [BitVec.add_zero, toInt_ofNat_lt t.val ht, toInt_ofNat_lt d.val hd]
  exact Int.ofNat_le

/-- The bit spread over the four members, at (b, d, t). -/
theorem mask_bit (b : Fin 4) (d : Fin 64) (t : Fin 4096) :
    val_main_call0_v5 (F := Ideal) (ix3 b d t) = 1#1 ↔ t.val ≤ d.val := by
  have hi : idx_main_call0_v5 (ix3 b d t) = ix2 d t := funext fun a => Fin.ext (by
    match a with
    | ⟨0, _⟩ => rfl
    | ⟨1, _⟩ => rfl)
  have h5 : val_main_call0_v5 (F := Ideal) (ix3 b d t) = val_main_call0_v4 (F := Ideal) (ix2 d t) :=
    (val_main_call0_v5_apply (ix3 b d t)).trans (congrArg (val_main_call0_v4 (F := Ideal)) hi)
  rw [h5]
  exact tri_bit d t

/-- The array the mask selects outside the triangle is 0 everywhere. -/
theorem zero_at (b : Fin 4) (d : Fin 64) (t : Fin 4096) :
    val_main_call0_v6 (F := Ideal) (ix3 b d t) = (0 : EReal) := by
  rw [val_main_call0_v6_apply, val_main_call0_cst_apply]
  exact Ideal.ofBits_zero_f32

/-- The masked transposed keys at (b, d, t): the key of position t, feature d when t ≤ d, and 0 otherwise. -/
theorem mkeys_at (x0 : (⟨S4x4096x128, .f32⟩ : BufTy).Contents (Elt Ideal)) (x1 : (⟨S64x128, .f32⟩ : BufTy).Contents (Elt Ideal))
    (b : Fin 4) (d : Fin 64) (t : Fin 4096) :
    val_main_v4 (F := Ideal) x0 x1 (ix3 b d t) = mkey (member x0 b) (rows x1) t d := by
  rw [val_main_v4_apply]
  unfold mkey
  by_cases h : t.val ≤ d.val
  · rw [if_pos h, (mask_bit b d t).mpr h, select_one]
    exact keysT_at x0 x1 b d t
  · have hz : val_main_call0_v5 (F := Ideal) (ix3 b d t) = 0#1 :=
      eq_zero_of_ne_one fun h1 => h ((mask_bit b d t).mp h1)
    rw [if_neg h, hz, select_zero]
    exact zero_at b d t

/-! ## The scores and their softmax -/

/-- The score at (b, s, t): the queries of row s against the masked keys of position t. -/
theorem scores_at (x0 : (⟨S4x4096x128, .f32⟩ : BufTy).Contents (Elt Ideal)) (x1 x2 : (⟨S64x128, .f32⟩ : BufTy).Contents (Elt Ideal))
    (b : Fin 4) (s t : Fin 4096) :
    val_main_v5 (F := Ideal) x0 x1 x2 (ix3 b s t) = score (member x0 b) (rows x1) (rows x2) s t := by
  rw [val_main_v5_apply]
  unfold score
  refine Finset.sum_congr rfl fun d _ => ?_
  have hl : lidx_main_v5 (ix3 b s t) d = ix3 b s d := funext fun a => Fin.ext (by
    match a with
    | ⟨0, _⟩ => rfl
    | ⟨1, _⟩ => rfl
    | ⟨2, _⟩ => rfl)
  have hr : ridx_main_v5 (ix3 b s t) d = ix3 b d t := funext fun a => Fin.ext (by
    match a with
    | ⟨0, _⟩ => rfl
    | ⟨1, _⟩ => rfl
    | ⟨2, _⟩ => rfl)
  exact congrArg₂ (· * ·) ((congrArg (val_main_v1 (F := Ideal) x0 x2) hl).trans (queries_at x0 x2 b s d))
    ((congrArg (val_main_v4 (F := Ideal) x0 x1) hr).trans (mkeys_at x0 x1 b d t))

/-- The last axis of the stack of scores is the one the row reductions drop. -/
theorem reduces_last : (⟨3, ![4, 4096, 4096]⟩ : Shape).Reduces [2] ⟨2, ![4, 4096]⟩ := by decide

/-- The weights at (b, s, t): the operations from the row maximum to the quotient are the row softmax of the scores. -/
theorem weights_at (x0 : (⟨S4x4096x128, .f32⟩ : BufTy).Contents (Elt Ideal)) (x1 x2 : (⟨S64x128, .f32⟩ : BufTy).Contents (Elt Ideal))
    (b : Fin 4) (s t : Fin 4096) :
    val_main_v16 (F := Ideal) x0 x1 x2 (ix3 b s t)
      = Cert.Attn.sm (fun t' : Fin 4096 => val_main_v5 (F := Ideal) x0 x1 x2 (ix3 b s t')) t := by
  unfold val_main_v16 val_main_v15 val_main_v14 val_main_v13 val_main_v12 val_main_v11 val_main_v10 val_main_v9
    val_main_v8 val_main_v7 val_main_v6 val_main_cst val_main_cst_0 val_main_cst_1
  generalize val_main_v5 (F := Ideal) x0 x1 x2 = A
  exact Cert.HSoft.softmax_apply (G := 4) (a := 4096) (b := 4096) A reducesTo_S4x4096x4096_S4x4096_d2 reduces_last h_S_
    bcast_S_S4x4096 bcast_S4x4096_S4x4096x1_0_1 bcast_S4x4096x1_S4x4096x4096_0_1_2 b s t

/-! ## The result -/

/-- The reference program's result, as a function of its four arguments, is the specification. -/
theorem ref_eq_G (x0 : (⟨Cert.ReferenceIdeal.S4x4096x128, .f32⟩ : BufTy).Contents (Elt Ideal))
    (x1 x2 : (⟨Cert.ReferenceIdeal.S64x128, .f32⟩ : BufTy).Contents (Elt Ideal))
    (x3 : (⟨Cert.ReferenceIdeal.S128x128, .f32⟩ : BufTy).Contents (Elt Ideal)) :
    Cert.ReferenceIdeal.ReadP.val_main_v17 (F := Ideal) x0 x1 x2 x3 = Cert.MAttn.G x0 x1 x2 x3 := by
  funext i
  obtain ⟨b, s, v, rfl⟩ : ∃ (b : Fin 4) (s : Fin 4096) (v : Fin 128), i = ix3 b s v := ⟨i 0, i 1, i 2, eq_ix3 i⟩
  rw [G_apply, val_main_v17_apply]
  unfold attn
  refine Finset.sum_congr rfl fun t _ => ?_
  have hl : lidx_main_v17 (ix3 b s v) t = ix3 b s t := funext fun a => Fin.ext (by
    match a with
    | ⟨0, _⟩ => rfl
    | ⟨1, _⟩ => rfl
    | ⟨2, _⟩ => rfl)
  have hr : ridx_main_v17 (ix3 b s v) t = ix3 b t v := funext fun a => Fin.ext (by
    match a with
    | ⟨0, _⟩ => rfl
    | ⟨1, _⟩ => rfl
    | ⟨2, _⟩ => rfl)
  have hw : val_main_v16 (F := Ideal) x0 x1 x2 (ix3 b s t)
      = Cert.Attn.sm (score (member x0 b) (rows x1) (rows x2) s) t :=
    (weights_at x0 x1 x2 b s t).trans
      (congrArg (fun T : Fin 4096 → EReal => Cert.Attn.sm T t) (funext fun t' => scores_at x0 x1 x2 b s t'))
  exact congrArg₂ (· * ·) ((congrArg (val_main_v16 (F := Ideal) x0 x1 x2) hl).trans hw)
    ((congrArg (val_main_v2 (F := Ideal) x0 x3) hr).trans (values_at x0 x3 b t v))

end Cert.MAttn.Ref

end
-- ==== Proof.RefLink.lean ====
/-
  The reference's run, read as the specification.

  The reference program's run ends with its result buffer at the operations' composed term of the four argument arrays.
  That term is the last stage of the operation-by-operation reading (each stage one host operation applied to earlier
  stages), and the last stage is the attention function `G` of the arguments: projections of every row on the three
  weights, keys kept on and above the diagonal of the transposed key matrix, scores, a softmax along the 4096 positions,
  and the weighted sum of the values.
-/
import proofs.«176128_j20323785245297_2_alg».proof.Proof.RefRun
import proofs.«176128_j20323785245297_2_alg».proof.Proof.RefRead
import proofs.«176128_j20323785245297_2_alg».proof.Proof.RefIsG

noncomputable section

namespace Cert.MAttn.Ref

open Cert.ReferenceIdeal Cert.ReferenceIdeal.Gen Idealize.ShloMosaic Idealize.ShloMosaic.TcCoe Idealize.SL.Sem

/-- The run's composed term is the last stage of the operation-by-operation reading. -/
theorem res_eq {F : FTy → Type} [FloatOps F] (m : (ℓ : Loc nD τ sig) → Buf (Elt F) ℓ) (c : Dev nD) :
    Cert.ReferenceIdeal.RunP.res_main_v17 m c
      = Cert.ReferenceIdeal.ReadP.val_main_v17 (F := F) (m ((c.tc : Thread nD τ).loc main_arg0))
          (m ((c.tc : Thread nD τ).loc main_arg1)) (m ((c.tc : Thread nD τ).loc main_arg2))
          (m ((c.tc : Thread nD τ).loc main_arg3)) := by
  unfold Cert.ReferenceIdeal.RunP.res_main_v17; rfl

/-- The reference's run at the extended reals: the result array is `G` of the argument arrays, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17)
        = Cert.MAttn.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((res_eq m c).trans (ref_eq_G _ _ _ _)), (h c).2⟩)
    (Cert.ReferenceIdeal.RunP.run (F := Ideal) m ρ)

end Cert.MAttn.Ref

end
-- ==== Proof.LibLoraLaw.lean ====
/-
  The algebra of a linear layer with a low-rank update, on the extended reals.

  A layer maps a row v to  v·Wᵀ + b + (v·Aᵀ)·Bᵀ.  Folding the update into the weight, W' = W + B·A, the same row is
  v·W'ᵀ + b.  The two agree wherever every entry is a real number: the identity is distributivity and a change of
  the order of summation, which the extended reals only grant away from the infinities.  Real entries stay real
  through sums, products and tanh, so a stack of such layers can be compared layer by layer.
  Also here: a sum over G·K positions of a summand that vanishes outside the g-th group of K is the sum over that group.
-/
import Idealize.ShloMosaic.PureOps.Ideal.Laws

noncomputable section

open scoped BigOperators

namespace Cert.LibLoraLaw

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h _ (Finset.mem_insert_self _ _)).add (ih fun i hi => h i (Finset.mem_insert_of_mem hi))

/-- tanh of anything is a real number (it is ±1 at the infinities). -/
theorem isReal_tanh (x : EReal) : IsReal (Idealize.ShloMosaic.Ideal.tanh x) := by
  induction x using EReal.rec with
  | bot => exact ⟨-1, by simp⟩
  | coe r => exact ⟨Real.tanh r, rfl⟩
  | top => exact ⟨1, by simp⟩

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of real extended reals is the image of a family of reals. -/
theorem exists_real_family {ι : Type*} (f : ι → EReal) (h : ∀ i, IsReal (f i)) : ∃ g : ι → ℝ, f = fun i => (g i : EReal) :=
  ⟨fun i => (h i).choose, funext fun i => (h i).choose_spec⟩

/-- One output of the layer with the update folded into the weight: Σ_k v_k (W_k + Σ_r B_r A_{r k}) + b. -/
def foldedOut {κ ρ : Type*} [Fintype κ] [Fintype ρ] (v W : κ → EReal) (b : EReal) (A : ρ → κ → EReal) (B : ρ → EReal) : EReal :=
  (∑ k, v k * (W k + ∑ r, B r * A r k)) + b

/-- One output of the layer as the reference spells it: Σ_k v_k W_k + b + Σ_r (Σ_k v_k A_{r k}) B_r. -/
def splitOut {κ ρ : Type*} [Fintype κ] [Fintype ρ] (v W : κ → EReal) (b : EReal) (A : ρ → κ → EReal) (B : ρ → EReal) : EReal :=
  (∑ k, v k * W k) + b + ∑ r, (∑ k, v k * A r k) * B r

/-- Folding the low-rank update into the weight does not change the layer's output, when the row, the weight and the
    two factors are real: v·(W + B A)ᵀ = v·Wᵀ + (v·Aᵀ)·Bᵀ by distributivity and exchanging the two sums. -/
theorem folded_eq_split {κ ρ : Type*} [Fintype κ] [Fintype ρ] (v W : κ → EReal) (b : EReal) (A : ρ → κ → EReal) (B : ρ → EReal)
    (hv : ∀ k, IsReal (v k)) (hW : ∀ k, IsReal (W k)) (hA : ∀ r k, IsReal (A r k)) (hB : ∀ r, IsReal (B r)) :
    foldedOut v W b A B = splitOut v W b A B := by
  obtain ⟨v', rfl⟩ := exists_real_family v hv
  obtain ⟨W', rfl⟩ := exists_real_family W hW
  obtain ⟨B', rfl⟩ := exists_real_family B hB
  obtain ⟨A', hA'⟩ : ∃ g : ρ → κ → ℝ, A = fun r k => (g r k : EReal) :=
    ⟨fun r k => (hA r k).choose, funext fun r => funext fun k => (hA r k).choose_spec⟩
  subst hA'
  unfold foldedOut splitOut
  have key : (∑ k, v' k * (W' k + ∑ r, B' r * A' r k)) = (∑ k, v' k * W' k) + ∑ r, (∑ k, v' k * A' r k) * B' r := by
    simp only [mul_add, Finset.sum_add_distrib, Finset.mul_sum, Finset.sum_mul]
    congr 1
    rw [Finset.sum_comm]
    exact Finset.sum_congr rfl fun r _ => Finset.sum_congr rfl fun k _ => by ring
  have e1 : (∑ k, (v' k : EReal) * ((W' k : EReal) + ∑ r, (B' r : EReal) * (A' r k : EReal)))
      = ((∑ k, v' k * (W' k + ∑ r, B' r * A' r k) : ℝ) : EReal) := by
    rw [coe_sum]
    refine Finset.sum_congr rfl fun k _ => ?_
    rw [EReal.coe_mul, EReal.coe_add, coe_sum]
    simp only [EReal.coe_mul]
  have e2 : (∑ k, (v' k : EReal) * (W' k : EReal)) + ∑ r, (∑ k, (v' k : EReal) * (A' r k : EReal)) * (B' r : EReal)
      = (((∑ k, v' k * W' k) + ∑ r, (∑ k, v' k * A' r k) * B' r : ℝ) : EReal) := by
    rw [EReal.coe_add, coe_sum, coe_sum]
    have a1 : ∀ k, ((v' k * W' k : ℝ) : EReal) = (v' k : EReal) * (W' k : EReal) := fun k => EReal.coe_mul _ _
    have a2 : ∀ r, (((∑ k, v' k * A' r k) * B' r : ℝ) : EReal) = (∑ k, (v' k : EReal) * (A' r k : EReal)) * (B' r : EReal) :=
      fun r => by
        rw [EReal.coe_mul, coe_sum]
        simp only [EReal.coe_mul]
    simp only [a1, a2]
  rw [e1, key, ← e2, add_right_comm]

/-- The folded layer's output is real when everything that enters it is. -/
theorem isReal_foldedOut {κ ρ : Type*} [Fintype κ] [Fintype ρ] (v W : κ → EReal) (b : EReal) (A : ρ → κ → EReal) (B : ρ → EReal)
    (hv : ∀ k, IsReal (v k)) (hW : ∀ k, IsReal (W k)) (hb : IsReal b) (hA : ∀ r k, IsReal (A r k)) (hB : ∀ r, IsReal (B r)) :
    IsReal (foldedOut v W b A B) :=
  (isReal_sum _ _ fun k _ => (hv k).mul ((hW k).add (isReal_sum _ _ fun r _ => (hB r).mul (hA r k)))).add hb

/-- A sum over N positions of a summand that vanishes outside the g-th group of K consecutive positions is the sum
    over that group. -/
theorem sum_group {N K : ℕ} (hK : 0 < K) (g : ℕ) (hg : K * g + K ≤ N) (φ : Fin N → EReal) :
    (∑ l : Fin N, if l.val / K = g then φ l else 0)
      = ∑ k : Fin K, φ ⟨K * g + k.val, by have := k.isLt; omega⟩ := by
  rw [← Finset.sum_filter]
  symm
  refine Finset.sum_bij (fun (k : Fin K) _ => (⟨K * g + k.val, by have := k.isLt; omega⟩ : Fin N)) ?_ ?_ ?_ ?_
  · intro k _
    simp only [Finset.mem_filter, Finset.mem_univ, true_and]
    rw [Nat.mul_add_div hK, Nat.div_eq_of_lt k.isLt, Nat.add_zero]
  · intro k₁ _ k₂ _ h
    have := congrArg Fin.val h
    simp only at this
    exact Fin.ext (by omega)
  · intro l hl
    simp only [Finset.mem_filter, Finset.mem_univ, true_and] at hl
    refine ⟨⟨l.val % K, Nat.mod_lt _ hK⟩, Finset.mem_univ _, Fin.ext ?_⟩
    simp only
    rw [← hl]
    exact Nat.div_add_mod l.val K
  · intro k _
    rfl

end Cert.LibLoraLaw

end
-- ==== Proof.Law.lean ====
/-
  The windowed form of the attention with keys masked by a lower triangle on the transposed key matrix agrees with the
  full form, on real entries.

  Fix a query s and a column v. The score of s against a position t is  Σ_d q_d · mkey t d  and the masked key at (t, d)
  is kept only when t ≤ d < 64, so the score is exactly 0 at every position t ≥ 64. Hence:

  * every score is a real number, and so is the row maximum M, which is attained;
  * the maximum over all 4096 positions is the maximum over the first 128, because each of the other 3968 scores is 0,
    and 0 is already among the first 128 (at position 64);
  * a sum over the 4096 positions is the sum over the first 128 plus the sum over the other 3968; on those the
    exponential is exp (0 − M) throughout, so the softmax denominator is the window's sum plus 3968 · exp (0 − M);
  * the values of the other 3968 positions enter as  Σ_t Σ_e X[t, e] · Wv[v, e] = Σ_e (Σ_t X[t, e]) · Wv[v, e],  and the
    inner sum over the 3968 rows is the sum of all rows less the sum of the first 128.

  With real entries all of this is an identity between real numbers, in which the reciprocal of the denominator is a
  common factor: no division is ever cancelled. The extended reals enter only through the inclusion of the reals, which
  commutes with finite sums, products and differences.
-/
import proofs.«176128_j20323785245297_2_alg».proof.Proof.Spec
import proofs.«176128_j20323785245297_2_alg».proof.Proof.LibLoraLaw

noncomputable section

open scoped BigOperators

namespace Cert.MAttn

open Idealize.ShloMosaic Cert.LibLoraLaw

namespace Law

/-! ### Sums over the 4096 positions: the first 128 and the other 3968 -/

/-- The positions past the first 128. -/
def dn (t : Fin 3968) : Fin 4096 := ⟨128 + t.val, by have := t.isLt; omega⟩

/-- A sum over the 4096 positions is the sum over the first 128 plus the sum over the other 3968. -/
theorem sum_split (f : Fin 4096 → ℝ) :
    ∑ t : Fin 4096, f t = (∑ t : Fin 128, f (up t)) + ∑ t : Fin 3968, f (dn t) :=
  Fin.sum_univ_add (fun i : Fin (128 + 3968) => f i)

/-- The sum of the exponentials when the entries past the first 128 vanish: the window's sum plus 3968 equal terms. -/
theorem den_split (a : Fin 4096 → ℝ) (M : ℝ) (ha : ∀ t : Fin 4096, 128 ≤ t.val → a t = 0) :
    ∑ t : Fin 4096, Real.exp (a t - M)
      = (∑ t : Fin 128, Real.exp (a (up t) - M)) + 3968 * Real.exp (0 - M) := by
  rw [sum_split (fun t => Real.exp (a t - M))]
  congr 1
  have h1 : ∀ t : Fin 3968, Real.exp (a (dn t) - M) = Real.exp (0 - M) := fun t => by
    rw [ha (dn t) (Nat.le_add_right 128 t.val)]
  simp only [h1, Finset.sum_const, Finset.card_univ, Fintype.card_fin, nsmul_eq_mul]
  norm_num

/-- The weighted sum of the values, with any common factor c on the weights: the window's part, plus the shared weight
    times the values of the summed tail rows. -/
theorem num_split (a : Fin 4096 → ℝ) (M c : ℝ) (X : Fin 4096 → Fin 128 → ℝ) (w : Fin 128 → ℝ)
    (ha : ∀ t : Fin 4096, 128 ≤ t.val → a t = 0) :
    ∑ t : Fin 4096, Real.exp (a t - M) * c * (∑ e : Fin 128, X t e * w e)
      = ((∑ t : Fin 128, Real.exp (a (up t) - M) * (∑ e : Fin 128, X (up t) e * w e))
          + Real.exp (0 - M) * ∑ e : Fin 128, ((∑ t : Fin 4096, X t e) - ∑ t : Fin 128, X (up t) e) * w e) * c := by
  rw [sum_split (fun t => Real.exp (a t - M) * c * (∑ e : Fin 128, X t e * w e)), add_mul]
  congr 1
  · rw [Finset.sum_mul]
    exact Finset.sum_congr rfl fun t _ => by ring
  · have h1 : ∀ t : Fin 3968, Real.exp (a (dn t) - M) = Real.exp (0 - M) := fun t => by
      rw [ha (dn t) (Nat.le_add_right 128 t.val)]
    have h2 : ∀ e : Fin 128, (∑ t : Fin 4096, X t e) - ∑ t : Fin 128, X (up t) e = ∑ t : Fin 3968, X (dn t) e :=
      fun e => by rw [sum_split (fun t => X t e)]; ring
    have h3 : (∑ t : Fin 3968, ∑ e : Fin 128, X (dn t) e * w e) = ∑ e : Fin 128, (∑ t : Fin 3968, X (dn t) e) * w e := by
      rw [Finset.sum_comm]
      exact Finset.sum_congr rfl fun e _ => (Finset.sum_mul _ _ _).symm
    simp only [h1, h2]
    rw [← Finset.mul_sum, h3]
    ring

/-- The identity between real numbers: the windowed quotient is the full softmax against the values. -/
theorem real_key (a : Fin 4096 → ℝ) (M : ℝ) (X : Fin 4096 → Fin 128 → ℝ) (w : Fin 128 → ℝ)
    (ha : ∀ t : Fin 4096, 128 ≤ t.val → a t = 0) :
    ((∑ t : Fin 128, Real.exp (a (up t) - M) * (∑ e : Fin 128, X (up t) e * w e))
        + Real.exp (0 - M) * ∑ e : Fin 128, ((∑ t : Fin 4096, X t e) - ∑ t : Fin 128, X (up t) e) * w e)
      * (1 / ((∑ t : Fin 128, Real.exp (a (up t) - M)) + 3968 * Real.exp (0 - M)))
    = ∑ t : Fin 4096, Real.exp (a t - M) * (1 / ∑ t' : Fin 4096, Real.exp (a t' - M)) * (∑ e : Fin 128, X t e * w e) := by
  rw [← den_split a M ha, num_split a M _ X w ha]

/-! ### Real entries -/

/-- A doubly indexed family of real extended reals is the image of a family of reals. -/
theorem real_family2 {ι κ : Type*} (f : ι → κ → EReal) (h : ∀ i k, ∃ r : ℝ, f i k = (r : EReal)) :
    ∃ g : ι → κ → ℝ, ∀ i k, f i k = (g i k : EReal) :=
  ⟨fun i k => (h i k).choose, fun i k => (h i k).choose_spec⟩

/-- A row of real entries against a row of real entries is the real sum of products. -/
theorem proj_real {n : ℕ} (X : Fin 4096 → Fin 128 → EReal) (W : Fin n → Fin 128 → EReal)
    (X' : Fin 4096 → Fin 128 → ℝ) (W' : Fin n → Fin 128 → ℝ)
    (hX : ∀ s e, X s e = (X' s e : EReal)) (hW : ∀ k e, W k e = (W' k e : EReal)) (s : Fin 4096) (k : Fin n) :
    proj X W s k = ((∑ e : Fin 128, X' s e * W' k e : ℝ) : EReal) := by
  unfold proj
  rw [coe_sum]
  refine Finset.sum_congr rfl fun e _ => ?_
  rw [hX, hW, EReal.coe_mul]

theorem isReal_proj {n : ℕ} (X : Fin 4096 → Fin 128 → EReal) (W : Fin n → Fin 128 → EReal)
    (hX : ∀ s e, ∃ r : ℝ, X s e = (r : EReal)) (hW : ∀ k e, ∃ r : ℝ, W k e = (r : EReal)) (s : Fin 4096) (k : Fin n) :
    IsReal (proj X W s k) :=
  isReal_sum _ _ fun e _ => IsReal.mul (hX s e) (hW k e)

theorem isReal_score (X : Fin 4096 → Fin 128 → EReal) (Wk Wq : Fin 64 → Fin 128 → EReal)
    (hX : ∀ s e, ∃ r : ℝ, X s e = (r : EReal)) (hWk : ∀ k e, ∃ r : ℝ, Wk k e = (r : EReal))
    (hWq : ∀ k e, ∃ r : ℝ, Wq k e = (r : EReal)) (s t : Fin 4096) : IsReal (score X Wk Wq s t) := by
  unfold score
  refine isReal_sum _ _ fun d _ => IsReal.mul (isReal_proj X Wq hX hWq s d) ?_
  unfold mkey
  split_ifs
  · exact isReal_proj X Wk hX hWk t d
  · exact isReal_zero

/-- No feature d < 64 keeps the key of a position t ≥ 64: the score there is zero. -/
theorem score_zero (X : Fin 4096 → Fin 128 → EReal) (Wk Wq : Fin 64 → Fin 128 → EReal) (s t : Fin 4096)
    (ht : 64 ≤ t.val) : score X Wk Wq s t = 0 := by
  unfold score
  refine Finset.sum_eq_zero fun d _ => ?_
  unfold mkey
  rw [if_neg (by have := d.isLt; omega), mul_zero]

/-! ### The row maximum -/

/-- The running maximum from −∞ over a nonempty finite set is attained. -/
theorem fold_max_mem {ι : Type*} (s : Finset ι) (f : ι → EReal) (hs : s.Nonempty) :
    ∃ i ∈ s, s.fold max ⊥ f = f i := by
  classical
  induction s using Finset.induction_on with
  | empty => exact absurd hs (by simp)
  | insert a s ha ih =>
    rw [Finset.fold_insert ha]
    rcases s.eq_empty_or_nonempty with rfl | hne
    · exact ⟨a, by simp, by simp⟩
    · obtain ⟨i, hi, e⟩ := ih hne
      rcases max_choice (f a) (s.fold max ⊥ f) with h | h
      · exact ⟨a, Finset.mem_insert_self _ _, h⟩
      · exact ⟨i, Finset.mem_insert_of_mem hi, h.trans e⟩

/-- The maximum of a row that vanishes from position 64 on is the maximum of its first 128 entries. -/
theorem rowMax_window (T : Fin 4096 → EReal) (h0 : ∀ t : Fin 4096, 64 ≤ t.val → T t = 0) :
    Cert.Attn.rowMax T = Cert.Attn.rowMax (fun t : Fin 128 => T (up t)) := by
  unfold Cert.Attn.rowMax
  rw [Cert.Attn.ofBits_negInf]
  apply le_antisymm
  · rw [Finset.fold_max_le]
    refine ⟨bot_le, fun t _ => ?_⟩
    rw [Finset.le_fold_max]
    right
    by_cases ht : t.val < 128
    · exact ⟨⟨t.val, ht⟩, Finset.mem_univ _, le_of_eq (congrArg T (Fin.ext rfl))⟩
    · refine ⟨⟨64, by norm_num⟩, Finset.mem_univ _, ?_⟩
      rw [h0 t (by omega), h0 (up ⟨64, by norm_num⟩) (Nat.le_refl 64)]
  · rw [Finset.fold_max_le]
    refine ⟨bot_le, fun t _ => ?_⟩
    rw [Finset.le_fold_max]
    exact Or.inr ⟨up t, Finset.mem_univ _, le_rfl⟩

/-! ### The softmax of a real row -/

/-- The softmax of a row of reals with real maximum M: exp (a q − M) times the reciprocal of the sum. -/
theorem sm_real {n : ℕ} (T : Fin n → EReal) (a : Fin n → ℝ) (M : ℝ) (hT : ∀ q, T q = (a q : EReal))
    (hM : Cert.Attn.rowMax T = (M : EReal)) (hn : 0 < n) (q : Fin n) :
    Cert.Attn.sm T q = ((Real.exp (a q - M) * (1 / ∑ q' : Fin n, Real.exp (a q' - M)) : ℝ) : EReal) := by
  have he : ∀ q' : Fin n, Ideal.exp (T q' - (M : EReal)) = ((Real.exp (a q' - M) : ℝ) : EReal) := fun q' => by
    rw [hT, ← EReal.coe_sub, Ideal.exp_coe]
  have hpos : (0 : ℝ) < ∑ q' : Fin n, Real.exp (a q' - M) :=
    Finset.sum_pos (fun i _ => Real.exp_pos _) ⟨⟨0, hn⟩, Finset.mem_univ _⟩
  unfold Cert.Attn.sm
  rw [hM]
  simp only [he]
  rw [← coe_sum, Ideal.div_coe hpos.ne', ← EReal.coe_mul]

/-- The word 0x45780000 denotes 3968. -/
theorem ofBits_3968 : Ideal.ofBits .f32 0x45780000#32 = ((3968 : ℝ) : EReal) := by
  simp [Ideal.ofBits, Ideal.ieee, -EReal.coe_mul]; norm_num

end Law

open Law

/-- On real entries the windowed form is the attention output. -/
theorem kattn_eq_attn (X : Fin 4096 → Fin 128 → EReal) (Wk Wq : Fin 64 → Fin 128 → EReal) (Wv : Fin 128 → Fin 128 → EReal)
    (hX : ∀ s e, ∃ r : ℝ, X s e = (r : EReal)) (hWk : ∀ k e, ∃ r : ℝ, Wk k e = (r : EReal))
    (hWq : ∀ k e, ∃ r : ℝ, Wq k e = (r : EReal)) (hWv : ∀ k e, ∃ r : ℝ, Wv k e = (r : EReal))
    (s : Fin 4096) (v : Fin 128) :
    kattn X Wk Wq Wv s v = attn X Wk Wq Wv s v := by
  obtain ⟨X', hX'⟩ := real_family2 X hX
  obtain ⟨Wv', hWv'⟩ := real_family2 Wv hWv
  -- the scores of row s are real numbers, zero from position 64 on
  obtain ⟨a, ha⟩ : ∃ a : Fin 4096 → ℝ, ∀ t, score X Wk Wq s t = (a t : EReal) :=
    ⟨fun t => (isReal_score X Wk Wq hX hWk hWq s t).choose, fun t => (isReal_score X Wk Wq hX hWk hWq s t).choose_spec⟩
  have ha0 : ∀ t : Fin 4096, 128 ≤ t.val → a t = 0 := fun t ht => by
    have h := score_zero X Wk Wq s t (by omega)
    rw [ha] at h
    exact_mod_cast h
  -- the row maximum is one of them, and it is the maximum of the first 128
  obtain ⟨M, hM⟩ : ∃ M : ℝ, Cert.Attn.rowMax (score X Wk Wq s) = (M : EReal) := by
    obtain ⟨i, -, hi⟩ := fold_max_mem Finset.univ (score X Wk Wq s) ⟨⟨0, by norm_num⟩, Finset.mem_univ _⟩
    refine ⟨a i, ?_⟩
    unfold Cert.Attn.rowMax
    rw [Cert.Attn.ofBits_negInf, hi, ha]
  have hwmax : wmax X Wk Wq s = (M : EReal) := by
    unfold wmax
    rw [← rowMax_window (score X Wk Wq s) (fun t ht => score_zero X Wk Wq s t ht), hM]
  -- the values
  have hp : ∀ t : Fin 4096, proj X Wv t v = ((∑ e : Fin 128, X' t e * Wv' v e : ℝ) : EReal) :=
    fun t => proj_real X Wv X' Wv' hX' hWv' t v
  -- the full form
  have hattn : attn X Wk Wq Wv s v
      = ((∑ t : Fin 4096, Real.exp (a t - M) * (1 / ∑ t' : Fin 4096, Real.exp (a t' - M))
            * (∑ e : Fin 128, X' t e * Wv' v e) : ℝ) : EReal) := by
    unfold attn
    rw [coe_sum]
    refine Finset.sum_congr rfl fun t _ => ?_
    rw [sm_real (score X Wk Wq s) a M ha hM (by norm_num) t, hp, ← EReal.coe_mul]
  -- the windowed form, piece by piece
  have hwexp : ∀ t : Fin 128, wexp X Wk Wq s t = ((Real.exp (a (up t) - M) : ℝ) : EReal) := fun t => by
    unfold wexp
    rw [hwmax, ha, ← EReal.coe_sub, Ideal.exp_coe]
  have htailw : tailw X Wk Wq s = ((Real.exp (0 - M) : ℝ) : EReal) := by
    unfold tailw
    rw [hwmax, ← EReal.coe_zero, ← EReal.coe_sub, Ideal.exp_coe]
  have hrow : ∀ e : Fin 128, tailrow X e
      = (((∑ t : Fin 4096, X' t e) - ∑ t : Fin 128, X' (up t) e : ℝ) : EReal) := fun e => by
    unfold tailrow
    simp only [hX']
    rw [← coe_sum, ← coe_sum, ← EReal.coe_sub]
  have hQ : (∑ e : Fin 128, tailrow X e * Wv v e)
      = ((∑ e : Fin 128, ((∑ t : Fin 4096, X' t e) - ∑ t : Fin 128, X' (up t) e) * Wv' v e : ℝ) : EReal) := by
    rw [coe_sum]
    refine Finset.sum_congr rfl fun e _ => ?_
    rw [hrow, hWv', EReal.coe_mul]
  have hnum : (∑ t : Fin 128, wexp X Wk Wq s t * proj X Wv (up t) v)
      = ((∑ t : Fin 128, Real.exp (a (up t) - M) * (∑ e : Fin 128, X' (up t) e * Wv' v e) : ℝ) : EReal) := by
    rw [coe_sum]
    refine Finset.sum_congr rfl fun t _ => ?_
    rw [hwexp, hp, EReal.coe_mul]
  have hden : (∑ t : Fin 128, wexp X Wk Wq s t) = ((∑ t : Fin 128, Real.exp (a (up t) - M) : ℝ) : EReal) := by
    rw [coe_sum]
    exact Finset.sum_congr rfl fun t _ => hwexp t
  have hpos : (0 : ℝ) < (∑ t : Fin 128, Real.exp (a (up t) - M)) + 3968 * Real.exp (0 - M) :=
    add_pos_of_nonneg_of_pos (Finset.sum_nonneg fun t _ => (Real.exp_pos _).le)
      (mul_pos (by norm_num) (Real.exp_pos _))
  rw [hattn]
  unfold kattn
  rw [hnum, hQ, htailw, hden, ofBits_3968, ← EReal.coe_mul, ← EReal.coe_mul, ← EReal.coe_add, ← EReal.coe_add,
    Ideal.div_coe hpos.ne', ← EReal.coe_mul, real_key a M X' (Wv' v) ha0]

end Cert.MAttn

end
-- ==== Proof.LibRealEntry.lean ====
/-
  Finiteness of an extended real, as the comparison a precondition prints.

  On the extended reals |a| = max a (−a) is +∞ at both infinities, so the ordered comparison |a| < +∞ — against the
  binary32 pattern of +∞ — holds exactly of the real numbers.
-/
import Idealize.ShloMosaic.PureOps.Ideal

noncomputable section

namespace Cert.LibRealEntry

open Idealize.ShloMosaic

/-- An extended real whose absolute value compares below the pattern of +∞ is a real number. -/
theorem real_of_abs_lt (a : EReal)
    (h : Ideal.cmp .olt (max a (-a)) (Ideal.ofBits .f32 0x7F800000#32) = 1#1) : ∃ r : ℝ, a = (r : EReal) := by
  have hinf : Ideal.ofBits .f32 0x7F800000#32 = ⊤ := by simp [Ideal.ofBits, Ideal.ieee]
  rw [hinf] at h
  induction a using EReal.rec with
  | bot => simp [Ideal.cmp] at h
  | coe r => exact ⟨r, rfl⟩
  | top => simp [Ideal.cmp] at h

end Cert.LibRealEntry

end
-- ==== Proof.Finite.lean ====
/-
  The precondition makes every entry of every argument array a real number.

  The printed predicate takes, of each of the four arrays, the absolute value of every entry, compares it (ordered,
  less-than) with +∞ — the binary32 pattern 0x7F800000, broadcast to the array's shape —, folds the resulting bits of one
  array by `and` over all of its axes starting from `true`, and ands the four bits so obtained. The claim says the final
  bit is 1. A conjunction of bits is 1 only when each of them is; a fold by `and` over all axes is 1 only when every
  folded bit is; and on the extended reals |x| = max x (−x) is +∞ at both infinities, so |x| < +∞ holds exactly of the
  real numbers. Nothing here enumerates an index type: the fold is read back through its ∀-form.
-/
import proofs.«176128_j20323785245297_2_alg».proof.Pre_finite_inputs
import proofs.«176128_j20323785245297_2_alg».proof.Proof.LibRealEntry
import Idealize.ShloMosaic.Lib.ReduceAll
import Idealize.ShloMosaic.PureOps.Ideal

noncomputable section

namespace Cert.MAttn.Finite

open Idealize.ShloMosaic
open Cert.Pre_finite_inputs (S_ S4x4096x128 S64x128 S128x128)

/-- The shape of rank 0 has exactly one index. -/
instance : Subsingleton S_.Idx := ⟨fun a b => funext fun d => d.elim0⟩

/-- The one index of the rank-0 shape. -/
def j0 : S_.Idx := fun d => d.elim0

/-- One array's bit. If the fold by `and`, over all axes and from `true`, of the comparisons |x| < +∞ is 1, then every
    entry of the array is a real number: each folded bit is 1, and a bit |x| < +∞ that is 1 says x is real. -/
theorem real_of_all {S : Shape} {axes : List (Fin S.rank)} (hb : S_.BroadcastsInDim S (![] : Fin 0 → Fin S.rank))
    (hr : S.ReducesTo axes S_) (hu : 0 < S_.numel) (a : FVec Ideal S .f32) (j : S_.Idx)
    (e : Host.reduce IntOp.andi
          (cmpf .olt (Host.absf a) (broadcastInDim S ![] hb (constant (F := Ideal) S_ .f32 0x7F800000#32)))
          (constantI S_ 1 1#1) hr hu j = 1#1)
    (i : S.Idx) : ∃ r : ℝ, a i = (r : EReal) :=
  Cert.LibRealEntry.real_of_abs_lt (a i) (Host.reduce_andi_all _ _ hr hu j e i)

/-- A conjunction of four bits, read at an index, is 1 only when each of the four is. -/
theorem and4 {p q r s : IVec S_ 1} {j : S_.Idx} (h : andi (andi (andi p q) r) s j = 1#1) :
    p j = 1#1 ∧ q j = 1#1 ∧ r j = 1#1 ∧ s j = 1#1 := by
  have h3 : IntOp.andi (andi (andi p q) r j) (s j) = 1#1 := h
  obtain ⟨h2, hs⟩ := IntOp.andi_eq_one.1 h3
  have h2' : IntOp.andi (andi p q j) (r j) = 1#1 := h2
  obtain ⟨h1, hr⟩ := IntOp.andi_eq_one.1 h2'
  have h1' : IntOp.andi (p j) (q j) = 1#1 := h1
  obtain ⟨hp, hq⟩ := IntOp.andi_eq_one.1 h1'
  exact ⟨hp, hq, hr, hs⟩

/-- Under the precondition every entry of each of the four argument arrays is a real number. -/
theorem real_of_pre [Cert.Pre_finite_inputs.Facts]
    (a0 : FVec Ideal Cert.Pre_finite_inputs.S4x4096x128 .f32) (a1 a2 : FVec Ideal Cert.Pre_finite_inputs.S64x128 .f32)
    (a3 : FVec Ideal Cert.Pre_finite_inputs.S128x128 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) := by
  -- the predicate's one bit, with its chain of operations in view
  have h0 := congrFun h j0
  dsimp only [Cert.Pre_finite_inputs.fn, Cert.Pre_finite_inputs.fn_part1] at h0
  -- the four arrays' bits, then each array's entries
  obtain ⟨e0, e1, e2, e3⟩ := and4 h0
  exact ⟨real_of_all _ _ _ a0 _ e0, real_of_all _ _ _ a1 _ e1, real_of_all _ _ _ a2 _ e2, real_of_all _ _ _ a3 _ e3⟩

end Cert.MAttn.Finite

end
-- ==== Proof.lean ====
/-
  Attention with keys masked by a lower triangle taken on the TRANSPOSED key matrix: a kernel that reads only the first
  128 positions of the scores against the plain formula over all 4096 positions.

  For one member X (4096 × 128) of the batch and weights Wk, Wq (64 × 128), Wv (128 × 128): queries, keys and values are
  the rows of X against the rows of the weights; the masked key at position t and feature d keeps the key only when
  t ≤ d, so it — and with it the score of every query against position t — vanishes for t ≥ 64. The reference takes the
  softmax of each row of 4096 scores and the weighted sum of the 4096 values. The kernel takes the maximum and the
  exponentials of the first 128 scores only, gives the other 3968 positions the one weight exp (0 − max) their zero score
  earns, and brings their values in through the sum of their rows (all rows less the first 128) times Wv. On real entries
  the two agree: the maxima agree because 0 is already among the first 128 scores; the denominators agree term by term;
  and the tail of the numerator is a finite exchange of sums over real numbers. The finiteness of the inputs is what makes
  the entries real.

  The three frames are the generated frame proofs (the reference's is its run with the result dropped); the ideal pass
  rewrote nothing, so the kernel's idealization claim is `True`.
-/
import proofs.«176128_j20323785245297_2_alg».proof.Defs
import proofs.«176128_j20323785245297_2_alg».proof.Proof.Gen.Kernel
import proofs.«176128_j20323785245297_2_alg».proof.Proof.Gen.Kernel.Skeleton
import proofs.«176128_j20323785245297_2_alg».proof.Proof.Gen.Kernel.Launch
import proofs.«176128_j20323785245297_2_alg».proof.Proof.Gen.Kernel.Points
import proofs.«176128_j20323785245297_2_alg».proof.Proof.Gen.Kernel.Frame
import proofs.«176128_j20323785245297_2_alg».proof.Proof.Gen.KernelIdeal
import proofs.«176128_j20323785245297_2_alg».proof.Proof.Gen.KernelIdeal.Skeleton
import proofs.«176128_j20323785245297_2_alg».proof.Proof.Gen.KernelIdeal.Launch
import proofs.«176128_j20323785245297_2_alg».proof.Proof.Gen.KernelIdeal.Points
import proofs.«176128_j20323785245297_2_alg».proof.Proof.Gen.KernelIdeal.Frame
import proofs.«176128_j20323785245297_2_alg».proof.Proof.Gen.ReferenceIdeal
import proofs.«176128_j20323785245297_2_alg».proof.Proof.Gen.Pre_finite_inputs
import proofs.«176128_j20323785245297_2_alg».proof.Proof.Gen.KernelIdeal.Value
import proofs.«176128_j20323785245297_2_alg».proof.Proof.KerBlocks
import proofs.«176128_j20323785245297_2_alg».proof.Proof.RefLink
import proofs.«176128_j20323785245297_2_alg».proof.Proof.Law
import proofs.«176128_j20323785245297_2_alg».proof.Proof.Finite
import Idealize.ShloMosaic.Adequacy
import Idealize.ShloMosaic.Init

noncomputable section

namespace Cert.Proof

open Idealize.ShloMosaic Idealize.SL.Sem Idealize.ShloMosaic.ValueIdx

/-- On real entries the windowed array is the attention array: member by member, row by row, the law of the two forms. -/
theorem Gk_eq_G (X : FVec Ideal Cert.KernelIdeal.S4x4096x128 .f32) (Wk Wq : FVec Ideal Cert.KernelIdeal.S64x128 .f32)
    (Wv : FVec Ideal Cert.KernelIdeal.S128x128 .f32)
    (hX : ∀ i, ∃ r : ℝ, X i = (r : EReal)) (hWk : ∀ i, ∃ r : ℝ, Wk i = (r : EReal))
    (hWq : ∀ i, ∃ r : ℝ, Wq i = (r : EReal)) (hWv : ∀ i, ∃ r : ℝ, Wv i = (r : EReal)) :
    Cert.MAttn.KerRun.Gk X Wk Wq Wv = Cert.MAttn.G X Wk Wq Wv :=
  funext fun i => Cert.MAttn.kattn_eq_attn (Cert.MAttn.member X (i 0)) (Cert.MAttn.rows Wk) (Cert.MAttn.rows Wq)
    (Cert.MAttn.rows Wv) (fun s e => hX (ix3 (i 0) s e)) (fun k e => hWk (ix2 k e)) (fun k e => hWq (ix2 k e))
    (fun k e => hWv (ix2 k e)) (i 1) (i 2)

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunP.run (F := Ideal) m ρ)

/-- From memories that agree on the arguments both idealized programs end with the attention array of the arguments:
    the kernel with the windowed array, which the law turns into it on the real entries the precondition grants; the
    reference with its last stage, which is it. -/
theorem algebraic : Cert.algebraic_KernelIdeal_ReferenceIdeal := by
  intro m ρ m' ρ' hpre hagree
  refine ⟨fun c => Cert.MAttn.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩) (Cert.MAttn.KerRun.run m ρ)
    obtain ⟨h0, h1, h2, h3⟩ := Cert.MAttn.Finite.real_of_pre _ _ _ _ (hpre c)
    exact Gk_eq_G _ _ _ _ h0 h1 h2 h3
  · refine (θ_run Cert.ReferenceIdeal.defs _ _).mono (fun r h c => ⟨?_, (h c).2⟩) (Cert.MAttn.Ref.run m' ρ')
    rw [(h c).1, (hagree c).1, (hagree c).2.1, (hagree c).2.2.1, (hagree c).2.2.2]

theorem claim : Cert.Claim := ⟨Cert.Kernel.Gen.facts, Cert.KernelIdeal.Gen.facts, Cert.ReferenceIdeal.Gen.facts,
  Cert.Pre_finite_inputs.Gen.facts, frame_p, frame_pi, frame_ri, trivial, algebraic⟩

end Cert.Proof

end
